-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : FVec F S100000x64 .f32) (main_arg1 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x64 : Shape := ⟨2, ![4000, 64]⟩
abbrev S4000x1 : Shape := ⟨2, ![4000, 1]⟩
abbrev S1600000x64 : Shape := ⟨2, ![1600000, 64]⟩

abbrev nBuf : Space → Nat
  | .hbm => 90
  | .vmem => 54
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x64, .f32⟩
  | .hbm, ⟨81, _⟩ => ⟨S_, .f32⟩
  | .hbm, ⟨82, _⟩ => ⟨S100000x64, .f32⟩
  | .hbm, ⟨83, _⟩ => ⟨S1600000x1, .i32⟩
  | .hbm, ⟨84, _⟩ => ⟨S100000x64, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x1, .f32⟩
  | .local _ .vmem, ⟨11, _⟩ => ⟨S4000x1, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x1, .f32⟩
  | .local _ .vmem, ⟨25, _⟩ => ⟨S4000x1, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S4000x1, .f32⟩
  | .local _ .vmem, ⟨39, _⟩ => ⟨S4000x1, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x1, .f32⟩
  | .local _ .vmem, ⟨49, _⟩ => ⟨S4000x1, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v37_2 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_12 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem3_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x64_S4000x64_0_0 : ∀ a, (![0, 0] : Fin 2 → Nat) a + S4000x64.size a ≤ S4000x64.size a
  h_S4000x64 : 0 < S4000x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S4000x64_S4000x64 : S4000x64.ShapeCasts S4000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S100000x64.size a
  hwx1_2 : ∀ i : grid1.Coords, EltTy.bits .f32 = 32 ∨ (Rect.block (s := S100000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x64.size a ≤ S100000x64.size a
  hwx2_6 : ∀ i : grid2.Coords, EltTy.bits .f32 = 32 ∨ (Rect.block (s := S100000x64) S4000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S100000x64.size a
  hwx3_3 : ∀ i : grid3.Coords, EltTy.bits .f32 = 32 ∨ (Rect.block (s := S100000x64) S4000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15_0) S4000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15_0) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v26_0) S4000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26_1) S4000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_2) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26_0) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_2) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37_0) S4000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37_1) S4000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v37_2) S4000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37_0) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S4000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37_2) S4000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v48) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v62) S4000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1600000x1 : Shape := ⟨2, ![1600000, 1]⟩
abbrev S1600000x64 : Shape := ⟨2, ![1600000, 64]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x64, .f32⟩
  | 1 => ⟨S2x1600000, .i32⟩
  | 2 => ⟨S1x1600000, .i32⟩
  | 3 => ⟨S1600000, .i32⟩
  | 4 => ⟨S1x1600000, .i32⟩
  | 5 => ⟨S1600000, .i32⟩
  | 6 => ⟨S100000, .i32⟩
  | 7 => ⟨S1700000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .f32⟩
  | 44 => ⟨S100000x64, .f32⟩
  | 45 => ⟨S100000x64, .f32⟩
  | 46 => ⟨S1700000x1, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x64, .f32⟩
  | 57 => ⟨S1700000x64, .f32⟩
  | 58 => ⟨S_, .f32⟩
  | 59 => ⟨S100000x64, .f32⟩
  | 60 => ⟨S1700000x1, .i32⟩
  | 61 => ⟨S100000x64, .f32⟩
  | 62 => ⟨S_, .f32⟩
  | 63 => ⟨S100000x64, .f32⟩
  | 64 => ⟨S100000x64, .f32⟩
  | 65 => ⟨S100000x64, .f32⟩
  | 66 => ⟨S1700000x1, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S_, .f32⟩
  | 83 => ⟨S100000x64, .f32⟩
  | 84 => ⟨S100000x64, .f32⟩
  | 85 => ⟨S100000x64, .f32⟩
  | 86 => ⟨S1700000x1, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x64, .f32⟩
  | 97 => ⟨S1700000x64, .f32⟩
  | 98 => ⟨S_, .f32⟩
  | 99 => ⟨S100000x64, .f32⟩
  | 100 => ⟨S1700000x1, .i32⟩
  | 101 => ⟨S100000x64, .f32⟩
  | 102 => ⟨S_, .f32⟩
  | 103 => ⟨S100000x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S_, .f32⟩
  | 110 => ⟨S1600000, .f32⟩
  | 111 => ⟨S_, .f32⟩
  | 112 => ⟨S100000, .f32⟩
  | 113 => ⟨S1600000x1, .i32⟩
  | 114 => ⟨S100000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x64, .f32⟩
  | 5 => ⟨S100000x64, .f32⟩
  | 6 => ⟨S100000x64, .f32⟩
  | 7 => ⟨S_, .f32⟩
  | 8 => ⟨S100000x64, .f32⟩
  | 9 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_c_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_14 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_15 : Ref sig .tc := ⟨.hbm, 87, rfl⟩
abbrev main_v66 : Ref sig .tc := ⟨.hbm, 88, rfl⟩
abbrev main_v67 : Ref sig .tc := ⟨.hbm, 89, rfl⟩
abbrev main_c_16 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_cst : Ref sig .tc := ⟨.hbm, 106, rfl⟩
abbrev main_call1_v0 : Ref sig .tc := ⟨.hbm, 107, rfl⟩
abbrev main_v81 : Ref sig .tc := ⟨.hbm, 108, rfl⟩
abbrev main_cst_19 : Ref sig .tc := ⟨.hbm, 109, rfl⟩
abbrev main_v82 : Ref sig .tc := ⟨.hbm, 110, rfl⟩
abbrev main_cst_20 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_21 : Ref sig .tc := ⟨.hbm, 115, rfl⟩
abbrev main_v86 : Ref sig .tc := ⟨.hbm, 116, rfl⟩
abbrev main_v87 : Ref sig .tc := ⟨.hbm, 117, rfl⟩
abbrev main_c_22 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_23 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_24 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call2_cst : Ref sig .tc := ⟨.hbm, 135, rfl⟩
abbrev main_call2_v0 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S100000x64 : S_.BroadcastsInDim S100000x64 (![] : Fin 0 → Fin S100000x64.rank)
  bcast_S1700000x1_S1700000x64_0_1 : S1700000x1.BroadcastsInDim S1700000x64 (![0, 1] : Fin 2 → Fin S1700000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The mathematics of one graph-propagation layer, stated without any program.

  A graph has 100000 nodes and 1600000 edges; edge e reads the node row s e (its source, clamped into range)
  and is added into the node whose number is the integer t e (its target; an integer outside the range lands
  nowhere). Each node carries 64 features x n j.

  * cnt n is the number of edges into n (a sum of ones), deg n = cnt n + 1 counts a self loop, and
    dv n = deg n ^ (-1/2) where deg n > 0 (always the case here), 0 otherwise.
  * One propagation step sends a feature matrix h to
        h' n j = sum over edges e into n of dv (s e) * dv n * h (s e) j   +   dv n * dv n * h n j
    (the normalised adjacency with self loops applied to h).
  * Three steps are accumulated: acc = alpha * x + coef * (h1 + h2 + h3), rectified.
  * The rectified features are averaged over the incoming edges (the divisor at least one), the input added, and
    the sum rectified.

  Two arrangements of the same step are stated. The FACTORED one multiplies by dv n once, outside the edge sum,
  on pre-scaled rows g = dv * h; the EDGEWISE one multiplies each edge's row by its own weight
  (dv (s e) * 1) * dv n and treats the self loop as one more edge. They agree because dv n is a non-negative
  real number, and multiplication by a non-negative real distributes over any sum of extended reals.

  The first part names, for any float instance, the whole-array functions the five dense passes compute row by
  row; the second part is the index-by-index statement on the extended reals.
-/
import Idealize.ShloMosaic.PureOps.Ideal
import Idealize.ShloMosaic.Lib.ValueIdx

noncomputable section

open scoped BigOperators

namespace Cert.Spec

open Idealize.ShloMosaic Idealize.ShloMosaic.ValueIdx

/-! ## The dense passes as whole-array functions, at any float instance -/

section Dense

variable {F : FTy → Type} [FloatOps F]

/-- A feature matrix: one float per node and feature. -/
abbrev Mat (F : FTy → Type) : Type := (⟨2, ![100000, 64]⟩ : Shape).Idx → Elt F .f32
/-- A column: one float per node. -/
abbrev Col (F : FTy → Type) : Type := (⟨2, ![100000, 1]⟩ : Shape).Idx → Elt F .f32

/-- The column entry of the row an index lies in. -/
abbrev rowOf (i : (⟨2, ![100000, 64]⟩ : Shape).Idx) : (⟨2, ![100000, 1]⟩ : Shape).Idx := ix2 (i 0) (0 : Fin 1)

/-- alpha * x. -/
def scaleAlpha (x : Mat F) : Mat F := fun i => FloatOps.mulf (FloatOps.ofBits .f32 0x3DCCCCCD#32) (x i)
/-- Rows scaled by the column: d n * x n j. -/
def scaleRows (x : Mat F) (d : Col F) : Mat F := fun i => FloatOps.mulf (d (rowOf i)) (x i)
/-- One factored step: d n * s n j + (d n * d n) * h n j. -/
def stepH (h : Mat F) (d : Col F) (s : Mat F) : Mat F := fun i =>
  FloatOps.addf (FloatOps.mulf (d (rowOf i)) (s i)) (FloatOps.mulf (FloatOps.mulf (d (rowOf i)) (d (rowOf i))) (h i))
/-- The next pre-scaled rows: d n * h' n j. -/
def stepG (h : Mat F) (d : Col F) (s : Mat F) : Mat F := fun i => FloatOps.mulf (d (rowOf i)) (stepH h d s i)
/-- The next accumulator: acc n j + coef * h' n j. -/
def stepAcc (h : Mat F) (d : Col F) (s : Mat F) (acc : Mat F) : Mat F := fun i =>
  FloatOps.addf (acc i) (FloatOps.mulf (FloatOps.ofBits .f32 0x3E99999A#32) (stepH h d s i))
/-- The last step, rectified: max (acc n j + coef * h' n j) 0. -/
def stepRelu (h : Mat F) (d : Col F) (s : Mat F) (acc : Mat F) : Mat F := fun i =>
  FloatOps.maximumf (stepAcc h d s acc i) (FloatOps.ofBits .f32 0x00000000#32)
/-- The mean over incoming edges plus the input, rectified: max (agg n j / c n + x n j) 0. -/
def meanOut (agg : Mat F) (c : Col F) (x : Mat F) : Mat F := fun i =>
  FloatOps.maximumf (FloatOps.addf (FloatOps.divf (agg i) (c (rowOf i))) (x i)) (FloatOps.ofBits .f32 0x00000000#32)

end Dense

/-! ## The layer on the extended reals, index by index -/

/-- The float words of the program: 0, 1, alpha = 0.1 as a float, coef = 0.3 as a float. -/
abbrev zero : EReal := Ideal.ofBits .f32 0x00000000#32
abbrev one : EReal := Ideal.ofBits .f32 0x3F800000#32
abbrev alpha : EReal := Ideal.ofBits .f32 0x3DCCCCCD#32
abbrev coef : EReal := Ideal.ofBits .f32 0x3E99999A#32

/-- deg ^ (-1/2) where deg > 0, else 0: the guarded inverse square root. -/
def dinvOf (v : EReal) : EReal := Scalar.select (Ideal.cmp .ogt v zero) (Ideal.rsqrt v) zero

/-- A negative integer word counts from the end: v + 100000 when v < 0, else v. -/
def wrapWord (v : BitVec 32) : BitVec 32 := Scalar.select (IntOp.cmpi .slt v 0#32) (IntOp.addi v 100000#32) v

section Layer

variable (x : Fin 100000 → Fin 64 → EReal) (s : Fin 1600000 → Fin 100000) (t : Fin 1600000 → ℤ)

/-- The edges into node n. -/
def into (n : Fin 100000) : Finset (Fin 1600000) := Finset.univ.filter fun e => t e = (n.val : ℤ)

/-- The number of edges into n, as a sum of ones from zero. -/
def cnt (n : Fin 100000) : EReal := zero + ∑ _e ∈ into t n, one
/-- The degree with the self loop, and its guarded inverse square root. -/
def deg (n : Fin 100000) : EReal := cnt t n + one
def dv (n : Fin 100000) : EReal := dinvOf (deg t n)

/-- The rows of g summed over the edges into n, from zero. -/
def gatherSum (g : Fin 100000 → Fin 64 → EReal) (n : Fin 100000) (j : Fin 64) : EReal :=
  zero + ∑ e ∈ into t n, g (s e) j

/-- The factored step. -/
def fstep (h : Fin 100000 → Fin 64 → EReal) (n : Fin 100000) (j : Fin 64) : EReal :=
  dv t n * gatherSum s t (fun m k => dv t m * h m k) n j + (dv t n * dv t n) * h n j

/-- The edgewise step: each edge's row times its weight, the self loop one more term. -/
def estep (h : Fin 100000 → Fin 64 → EReal) (n : Fin 100000) (j : Fin 64) : EReal :=
  zero + (∑ e ∈ into t n, ((dv t (s e) * one) * dv t n) * h (s e) j + ((dv t n * one) * dv t n) * h n j)

/-- The layer's result from the three propagated matrices h1 h2 h3 (of either arrangement). -/
def finish (h1 h2 h3 : Fin 100000 → Fin 64 → EReal) (n : Fin 100000) (j : Fin 64) : EReal :=
  max (Ideal.div (gatherSum s t (fun m k => max (((alpha * x m k + coef * h1 m k) + coef * h2 m k) + coef * h3 m k) zero) n j)
      (max (cnt t n) one) + x n j) zero

/-- The layer, factored arrangement. -/
def outF (n : Fin 100000) (j : Fin 64) : EReal :=
  finish x s t (fstep s t x) (fstep s t (fstep s t x)) (fstep s t (fstep s t (fstep s t x))) n j

/-- The layer, edgewise arrangement. -/
def outE (n : Fin 100000) (j : Fin 64) : EReal :=
  finish x s t (estep s t x) (estep s t (estep s t x)) (estep s t (estep s t (estep s t x))) n j

end Layer

end Cert.Spec

end
-- ==== Proof.LibSegment.lean ====
/-
  Rows picked out of an array by a column of integer indices, and rows added into an array at a column of
  integer indices, read at an index.

  A column `idx : [M, 1]` of integers names, for each of `M` edges, one of `N` rows.
  * Picking (`x[idx]`, a `stablehlo.gather` with one collapsed axis): edge `e` reads row `idx[e, 0]`, the integer
    taken signed and clamped into `[0, N - 1]` — for a flat array `[N]` (`gather_entries_apply`) and for an array
    of rows `[N, D]` (`gather_rows_apply`).
  * Adding (`zeros.at[idx].add(upd)`, a `stablehlo.scatter` whose body adds): at the exact extended reals, row `n`
    of the result is the operand's row plus the sum of the updates of exactly those edges whose integer, taken
    signed and NOT clamped, is `n`; an edge whose integer is outside `[0, N)` contributes nowhere — for a flat
    array (`scatterAdd_entries_apply`) and for rows (`scatterAdd_rows_apply`).
  Both are stated for any extents, over the dimension numbers spelt out as `entryDims`, `rowDims`, `entryAddDims`,
  `rowAddDims`; a program's own record of the same numbers is one of these by `rfl`.
-/
import Idealize.ShloMosaic.PureOps.Ideal
import Idealize.ShloMosaic.Lib.ValueIdx

noncomputable section

open scoped BigOperators

namespace Cert.LibSegment

open Idealize.ShloMosaic Idealize.ShloMosaic.ValueIdx

variable {α : Type}

/-- The entry `(e, 0)` of a column `[M, 1]`. -/
abbrev colIdx {M : Nat} (e : Fin M) : (⟨2, ![M, 1]⟩ : Shape).Idx := ix2 e (⟨0, Nat.one_pos⟩ : Fin 1)

/-- An integer word taken signed and clamped into `[0, N - 1]`: the row a gather reads. -/
def clampRow (N : Nat) (hN : 0 < N) {w : Nat} (v : BitVec w) : Fin N := ⟨min v.toInt.toNat (N - 1), by omega⟩

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-! ## Picking entries of a flat array -/

/-- The dimension numbers of `x[idx]` for `x : [N]`, `idx : [M, 1]`, result `[M]`. -/
abbrev entryDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Edge `e` of `x[idx]` is `x` at the clamped integer `idx[e, 0]`. -/
theorem gather_entries_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryDims N M wf) x idx (ix1 e) = x (ix1 (clampRow N hN (idx (colIdx e)))) := by
  unfold Host.gather
  congr 1
  funext a
  obtain rfl : a = 0 := Subsingleton.elim _ _
  refine Fin.ext ?_
  show (entryDims N M wf).start (ix1 e) idx 0 + (entryDims N M wf).batchCoord (ix1 e) 0
    + (entryDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N M wf).startIndexMap from List.mem_singleton.mpr rfl)]
  have hsi : (entryDims N M wf).siIdx (ix1 e) ⟨List.idxOf (0 : Fin 1) (entryDims N M wf).startIndexMap,
      List.idxOf_lt_length_iff.2 (List.mem_singleton.mpr rfl)⟩ = colIdx e := by
    funext b; refine Fin.ext ?_
    match b with
    | ⟨0, _⟩ => rfl
    | ⟨1, _⟩ => rfl
  rw [hsi]
  rfl

/-! ## Picking rows -/

/-- The dimension numbers of `x[idx]` for `x : [N, D]`, `idx : [M, 1]`, result `[M, D]`: whole rows. -/
abbrev rowDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry `(e, j)` of the picked rows is `x` at row (the clamped integer `idx[e, 0]`), column `j`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (j : Fin D) :
    Host.gather (rowDims N D M wf) x idx (ix2 e j) = x (ix2 (clampRow N hN (idx (colIdx e))) j) := by
  unfold Host.gather
  congr 1
  funext a
  refine Fin.ext ?_
  match a with
  | ⟨0, _⟩ =>
    show (rowDims N D M wf).start (ix2 e j) idx 0 + (rowDims N D M wf).batchCoord (ix2 e j) 0
      + (rowDims N D M wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 e j) ⟨List.idxOf (0 : Fin 2) (rowDims N D M wf).startIndexMap,
        List.idxOf_lt_length_iff.2 (List.mem_singleton.mpr rfl)⟩ = colIdx e := by
      funext b; refine Fin.ext ?_
      match b with
      | ⟨0, _⟩ => rfl
      | ⟨1, _⟩ => rfl
    rw [hsi]
    rfl
  | ⟨1, _⟩ =>
    show (rowDims N D M wf).start (ix2 e j) idx 1 + (rowDims N D M wf).batchCoord (ix2 e j) 1
      + (rowDims N D M wf).offCoord (ix2 e j) 1 = j.val
    rw [GatherDims.batchCoord_eq_zero _ _ _ List.not_mem_nil]
    have hs : (rowDims N D M wf).start (ix2 e j) idx 1 = 0 := by
      unfold GatherDims.start
      rw [dif_neg (show (1 : Fin 2) ∉ [(0 : Fin 2)] from by decide)]
    have hk : (1 : Fin 2) ∈ (rowDims N D M wf).sKept :=
      show (1 : Fin 2) ∈ (List.finRange 2).filter (· ∉ [(0 : Fin 2)] ++ []) from by decide
    rw [hs]
    unfold GatherDims.offCoord
    rw [dif_pos hk]
    simp only [Nat.zero_add, Nat.add_zero]
    rfl

/-! ## Adding entries into a flat array -/

/-- The dimension numbers of `x.at[idx].add(upd)` for `x : [N]`, `idx : [M, 1]`, `upd : [M]`. -/
abbrev entryAddDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where edge `e`'s update lands: at its integer, signed. -/
theorem entryAdd_pos {N M w : Nat} (wf : ScatterDims.WF ⟨1, ![N]⟩ ⟨2, ![M, 1]⟩ ⟨1, ![M]⟩ [] [0] [0] 1)
    (idx : IVec ⟨2, ![M, 1]⟩ w) (e : Fin M) (a : Fin 1) :
    (entryAddDims N M wf).start (ix1 e) idx a + ((entryAddDims N M wf).window (ix1 e) a : Int)
      = (idx (colIdx e)).toInt := by
  obtain rfl : a = 0 := Subsingleton.elim _ _
  have hw : (entryAddDims N M wf).window (ix1 e) 0 = 0 := by
    unfold ScatterDims.window
    have hk : (0 : Fin 1) ∉ (entryAddDims N M wf).sKept :=
      show (0 : Fin 1) ∉ (List.finRange 1).filter (· ∉ [(0 : Fin 1)]) from by decide
    rw [dif_neg hk]
  rw [hw]
  unfold ScatterDims.start
  rw [dif_pos (show (0 : Fin 1) ∈ (entryAddDims N M wf).scatterDimsToOperandDims from List.mem_singleton.mpr rfl)]
  have hsi : (entryAddDims N M wf).siIdx (ix1 e) ⟨List.idxOf (0 : Fin 1) (entryAddDims N M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Edge `e`'s update lands on entry `n` exactly when its integer, signed, is `n`. -/
theorem entryAdd_resultIdx_iff {N M w : Nat} (wf : ScatterDims.WF ⟨1, ![N]⟩ ⟨2, ![M, 1]⟩ ⟨1, ![M]⟩ [] [0] [0] 1)
    (idx : IVec ⟨2, ![M, 1]⟩ w) (e : Fin M) (n : Fin N) :
    (entryAddDims N M wf).resultIdx? (ix1 e) idx = some (ix1 n) ↔ (idx (colIdx e)).toInt = (n.val : Int) := by
  unfold ScatterDims.resultIdx?
  constructor
  · intro h
    split at h
    · next hb =>
      have h0 := congrArg Fin.val (congrFun (Option.some.inj h) 0)
      have h1 := (hb 0).1
      simp only [entryAdd_pos] at h0 h1
      have h2 : (idx (colIdx e)).toInt.toNat = n.val := h0
      omega
    · exact absurd h (by simp)
  · intro h
    have hb : ∀ a, 0 ≤ (entryAddDims N M wf).start (ix1 e) idx a + ((entryAddDims N M wf).window (ix1 e) a : Int)
        ∧ (entryAddDims N M wf).start (ix1 e) idx a + ((entryAddDims N M wf).window (ix1 e) a : Int)
          < ((⟨1, ![N]⟩ : Shape).size a : Int) := by
      intro a
      obtain rfl : a = 0 := Subsingleton.elim _ _
      rw [entryAdd_pos, h]
      exact ⟨Int.natCast_nonneg _, by exact_mod_cast n.isLt⟩
    rw [dif_pos hb]
    congr 1
    funext a
    obtain rfl : a = 0 := Subsingleton.elim _ _
    refine Fin.ext ?_
    show ((entryAddDims N M wf).start (ix1 e) idx 0 + ((entryAddDims N M wf).window (ix1 e) 0 : Int)).toNat = n.val
    rw [entryAdd_pos, h]
    simp

/-- Entry `n` after the additions: the operand's entry plus the updates of the edges whose integer is `n`. -/
theorem scatterAdd_entries_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (entryAddDims N M wf) x idx upd (ix1 n)
      = x (ix1 n) + ∑ e ∈ Finset.univ.filter (fun e : Fin M => (idx (colIdx e)).toInt = (n.val : Int)), upd (ix1 e) := by
  unfold Ideal.hostScatterAdd
  congr 1
  rw [Finset.sum_filter, Finset.sum_filter]
  refine Fintype.sum_equiv idxEquiv1 _ _ (fun i => ?_)
  rw [eq_ix1 i]
  exact if_congr (entryAdd_resultIdx_iff wf idx (i 0) n) rfl rfl

/-- The same for the host operation as a program prints it. -/
theorem hostScatterAdd_entries_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (n : Fin N) :
    Host.scatterAdd (F := Ideal) (entryAddDims N M wf) x idx upd (ix1 n)
      = x (ix1 n) + ∑ e ∈ Finset.univ.filter (fun e : Fin M => (idx (colIdx e)).toInt = (n.val : Int)), upd (ix1 e) := by
  unfold Host.scatterAdd
  rw [Ideal.hostScatterAdd_def]
  exact scatterAdd_entries_apply wf x idx upd n

/-! ## Adding rows -/

/-- The dimension numbers of `x.at[idx].add(upd)` for `x : [N, D]`, `idx : [M, 1]`, `upd : [M, D]`: whole rows. -/
abbrev rowAddDims (N D M : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where entry `(e, c)` of the updates lands, row coordinate: at edge `e`'s integer, signed. -/
theorem rowAdd_pos0 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 0 + ((rowAddDims N D M wf).window (ix2 e c) 0 : Int)
      = (idx (colIdx e)).toInt := by
  have hw : (rowAddDims N D M wf).window (ix2 e c) 0 = 0 := by
    unfold ScatterDims.window
    have hk : (0 : Fin 2) ∉ (rowAddDims N D M wf).sKept :=
      show (0 : Fin 2) ∉ (List.finRange 2).filter (· ∉ [(0 : Fin 2)]) from by decide
    rw [dif_neg hk]
  rw [hw]
  unfold ScatterDims.start
  rw [dif_pos (show (0 : Fin 2) ∈ (rowAddDims N D M wf).scatterDimsToOperandDims from List.mem_singleton.mpr rfl)]
  have hsi : (rowAddDims N D M wf).siIdx (ix2 e c) ⟨List.idxOf (0 : Fin 2) (rowAddDims N D M wf).scatterDimsToOperandDims,
      List.idxOf_lt_length_iff.2 (List.mem_singleton.mpr rfl)⟩ = colIdx e := by
    funext b; refine Fin.ext ?_
    match b with
    | ⟨0, _⟩ => rfl
    | ⟨1, _⟩ => rfl
  rw [hsi]
  simp

/-- Where entry `(e, c)` of the updates lands, column coordinate: at `c`. -/
theorem rowAdd_pos1 {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) :
    (rowAddDims N D M wf).start (ix2 e c) idx 1 + ((rowAddDims N D M wf).window (ix2 e c) 1 : Int) = (c.val : Int) := by
  have hs : (rowAddDims N D M wf).start (ix2 e c) idx 1 = 0 := by
    unfold ScatterDims.start
    rw [dif_neg (show (1 : Fin 2) ∉ [(0 : Fin 2)] from by decide)]
  have hw : (rowAddDims N D M wf).window (ix2 e c) 1 = c.val := by
    unfold ScatterDims.window
    have hk : (1 : Fin 2) ∈ (rowAddDims N D M wf).sKept :=
      show (1 : Fin 2) ∈ (List.finRange 2).filter (· ∉ [(0 : Fin 2)]) from by decide
    rw [dif_pos hk]
    rfl
  rw [hs, hw]
  simp

/-- Entry `(e, c)` of the updates lands on `(n, j)` exactly when edge `e`'s integer, signed, is `n` and `c = j`. -/
theorem rowAdd_resultIdx_iff {N D M w : Nat} (wf : ScatterDims.WF ⟨2, ![N, D]⟩ ⟨2, ![M, 1]⟩ ⟨2, ![M, D]⟩ [1] [0] [0] 1)
    (idx : IVec ⟨2, ![M, 1]⟩ w) (e : Fin M) (c : Fin D) (n : Fin N) (j : Fin D) :
    (rowAddDims N D M wf).resultIdx? (ix2 e c) idx = some (ix2 n j)
      ↔ (idx (colIdx e)).toInt = (n.val : Int) ∧ c = j := by
  unfold ScatterDims.resultIdx?
  constructor
  · intro h
    split at h
    · next hb =>
      have h0 := congrArg Fin.val (congrFun (Option.some.inj h) 0)
      have h1 := congrArg Fin.val (congrFun (Option.some.inj h) 1)
      have h2 := (hb 0).1
      simp only [rowAdd_pos0] at h0 h2
      simp only [rowAdd_pos1] at h1
      have h3 : (idx (colIdx e)).toInt.toNat = n.val := h0
      have h4 : ((c.val : Int)).toNat = j.val := h1
      refine ⟨by omega, Fin.ext (by simpa using h4)⟩
    · exact absurd h (by simp)
  · rintro ⟨h, rfl⟩
    have hb : ∀ a, 0 ≤ (rowAddDims N D M wf).start (ix2 e c) idx a + ((rowAddDims N D M wf).window (ix2 e c) a : Int)
        ∧ (rowAddDims N D M wf).start (ix2 e c) idx a + ((rowAddDims N D M wf).window (ix2 e c) a : Int)
          < ((⟨2, ![N, D]⟩ : Shape).size a : Int) := by
      intro a
      match a with
      | ⟨0, _⟩ =>
        show 0 ≤ (rowAddDims N D M wf).start (ix2 e c) idx 0 + ((rowAddDims N D M wf).window (ix2 e c) 0 : Int)
          ∧ (rowAddDims N D M wf).start (ix2 e c) idx 0 + ((rowAddDims N D M wf).window (ix2 e c) 0 : Int) < (N : Int)
        rw [rowAdd_pos0, h]
        exact ⟨Int.natCast_nonneg _, by exact_mod_cast n.isLt⟩
      | ⟨1, _⟩ =>
        show 0 ≤ (rowAddDims N D M wf).start (ix2 e c) idx 1 + ((rowAddDims N D M wf).window (ix2 e c) 1 : Int)
          ∧ (rowAddDims N D M wf).start (ix2 e c) idx 1 + ((rowAddDims N D M wf).window (ix2 e c) 1 : Int) < (D : Int)
        rw [rowAdd_pos1]
        exact ⟨Int.natCast_nonneg _, by exact_mod_cast c.isLt⟩
    rw [dif_pos hb]
    congr 1
    funext a
    refine Fin.ext ?_
    match a with
    | ⟨0, _⟩ =>
      show ((rowAddDims N D M wf).start (ix2 e c) idx 0 + ((rowAddDims N D M wf).window (ix2 e c) 0 : Int)).toNat = n.val
      rw [rowAdd_pos0, h]; simp
    | ⟨1, _⟩ =>
      show ((rowAddDims N D M wf).start (ix2 e c) idx 1 + ((rowAddDims N D M wf).window (ix2 e c) 1 : Int)).toNat = c.val
      rw [rowAdd_pos1]; simp

/-- Entry `(n, j)` after the additions: the operand's entry plus column `j` of the updates of the edges whose
    integer is `n`. -/
theorem scatterAdd_rows_apply {N D M w : Nat} (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (n : Fin N) (j : Fin D) :
    Ideal.hostScatterAdd (rowAddDims N D M wf) x idx upd (ix2 n j)
      = x (ix2 n j) + ∑ e ∈ Finset.univ.filter (fun e : Fin M => (idx (colIdx e)).toInt = (n.val : Int)), upd (ix2 e j) := by
  unfold Ideal.hostScatterAdd
  congr 1
  rw [Finset.sum_filter, Finset.sum_filter, sum_idx2]
  refine Finset.sum_congr rfl (fun e _ => ?_)
  by_cases hA : (idx (colIdx e)).toInt = (n.val : Int)
  · rw [if_pos hA]
    rw [Finset.sum_eq_single j]
    · rw [if_pos ((rowAdd_resultIdx_iff wf idx e j n j).mpr ⟨hA, rfl⟩)]
    · intro c _ hc
      rw [if_neg (fun h => hc ((rowAdd_resultIdx_iff wf idx e c n j).mp h).2)]
    · intro h; exact absurd (Finset.mem_univ j) h
  · rw [if_neg hA]
    refine Finset.sum_eq_zero (fun c _ => ?_)
    rw [if_neg (fun h => hA ((rowAdd_resultIdx_iff wf idx e c n j).mp h).1)]

/-- The same for the host operation as a program prints it. -/
theorem hostScatterAdd_rows_apply {N D M w : Nat} {φ : FTy}
    (wf : ScatterDims.WF ⟨2, ![N, D]⟩ ⟨2, ![M, 1]⟩ ⟨2, ![M, D]⟩ [1] [0] [0] 1)
    (x : FVec Ideal ⟨2, ![N, D]⟩ φ) (idx : IVec ⟨2, ![M, 1]⟩ w) (upd : FVec Ideal ⟨2, ![M, D]⟩ φ) (n : Fin N) (j : Fin D) :
    Host.scatterAdd (F := Ideal) (rowAddDims N D M wf) x idx upd (ix2 n j)
      = x (ix2 n j) + ∑ e ∈ Finset.univ.filter (fun e : Fin M => (idx (colIdx e)).toInt = (n.val : Int)), upd (ix2 e j) := by
  unfold Host.scatterAdd
  rw [Ideal.hostScatterAdd_def]
  exact scatterAdd_rows_apply wf x idx upd n j

end Cert.LibSegment

end
-- ==== Proof.SpecEdges.lean ====
/-
  The edge data of the graph as read off the integer input edge_index : [2, 1600000].

  Row 0 holds each edge's source, row 1 its target. A source is used to pick a row: a negative word counts from
  the end (100000 is added), and the result, taken signed, is clamped into [0, 99999]. A target is used to add
  into a row: it is taken signed and not clamped (an integer outside [0, 100000) adds nowhere).
-/
import proofs.«100325_j31980326486703_2_alg».proof.Proof.Spec
import proofs.«100325_j31980326486703_2_alg».proof.Proof.LibSegment

noncomputable section

namespace Cert.Spec

open Idealize.ShloMosaic Idealize.ShloMosaic.ValueIdx

/-- The node row edge e reads: its source word, wrapped and clamped. -/
def srcRow (ei : (⟨2, ![2, 1600000]⟩ : Shape).Idx → BitVec 32) (e : Fin 1600000) : Fin 100000 :=
  Cert.LibSegment.clampRow 100000 (by decide) (wrapWord (ei (ix2 (0 : Fin 2) e)))

/-- The integer edge e is added at: its target word, signed. -/
def dstInt (ei : (⟨2, ![2, 1600000]⟩ : Shape).Idx → BitVec 32) (e : Fin 1600000) : ℤ :=
  (ei (ix2 (1 : Fin 2) e)).toInt

/-- A feature matrix as a function of node and feature. -/
abbrev ofMat (x : (⟨2, ![100000, 64]⟩ : Shape).Idx → EReal) : Fin 100000 → Fin 64 → EReal := fun n j => x (ix2 n j)

end Cert.Spec

end
-- ==== Proof.KernelHost.lean ====
/-
  The host operations of the kernel program between its dense passes, as whole-array functions of the integer input
  edge_index, and each of them read at an index.

  * srcA, dstA: rows 0 and 1 of edge_index as flat arrays of 1600000 words.
  * cntA: ones added at the targets into zeros: entry n is 0 + (the sum of a one per edge into n).
  * dinvA: the guarded inverse square root of cntA + 1, entry by entry; dcolA its column [100000, 1].
  * sidxA: the sources, a negative word counted from the end, as a column of row numbers for picking.
  * segSum g: the rows of g picked at the sources, added at the targets into zeros: entry (n, j) is
    0 + (the sum over the edges e into n of g (source row of e, j)).
  * cmaxA: max (cntA, 1) as a column.
  kernelOut composes them with the five dense passes in the program's order.
-/
import proofs.«100325_j31980326486703_2_alg».proof.Proof.Gen.KernelIdeal
import proofs.«100325_j31980326486703_2_alg».proof.Proof.SpecEdges
import proofs.«100325_j31980326486703_2_alg».proof.Proof.LibSegment
import Idealize.ShloMosaic.Lib.Pipeline.Value
import Idealize.ShloMosaic.Lib.ValueIdx

set_option maxRecDepth 16384

noncomputable section

open scoped BigOperators

namespace Cert.KernelIdeal.Host

open Cert.KernelIdeal Cert.KernelIdeal.Gen Idealize.ShloMosaic Idealize.ShloMosaic.TcCoe Idealize.ShloMosaic.ValueIdx Cert.LibSegment

/-- The integer input and a feature matrix, as the program types them. -/
abbrev EI : Type := (⟨S2x1600000, .i32⟩ : BufTy).Contents (Elt Ideal)
abbrev Mx : Type := (⟨S100000x64, .f32⟩ : BufTy).Contents (Elt Ideal)

def srcA (ei : EI) : (⟨S1600000, .i32⟩ : BufTy).Contents (Elt Ideal) :=
  shapeCast S1600000 (extractStridedSlice S1x1600000 ![0, 0] ei slices_S2x1600000_S1x1600000_0_0) shapeCasts_S1x1600000_S1600000
def dstA (ei : EI) : (⟨S1600000, .i32⟩ : BufTy).Contents (Elt Ideal) :=
  shapeCast S1600000 (extractStridedSlice S1x1600000 ![1, 0] ei slices_S2x1600000_S1x1600000_1_0) shapeCasts_S1x1600000_S1600000
def cntA (ei : EI) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstA ei))
    (broadcastInDim S1600000 ![] bcast_S_S1600000 (constant (F := Ideal) S_ .f32 0x3F800000#32))
def degA (ei : EI) : FVec Ideal S100000 .f32 :=
  addf (cntA ei) (broadcastInDim S100000 ![] bcast_S_S100000 (constant (F := Ideal) S_ .f32 0x3F800000#32))
def dinvA (ei : EI) : FVec Ideal S100000 .f32 :=
  select (cmpf (F := Ideal) .ogt (degA ei) (broadcastInDim S100000 ![] bcast_S_S100000 (constant (F := Ideal) S_ .f32 0x00000000#32)))
    (Host.rsqrt (F := Ideal) (degA ei))
    (broadcastInDim S100000 ![] bcast_S_S100000 (constant (F := Ideal) S_ .f32 0x00000000#32))
def dcolA (ei : EI) : FVec Ideal S100000x1 .f32 :=
  broadcastInDim S100000x1 ![0] bcast_S100000_S100000x1_0 (dinvA ei)
def sidxA (ei : EI) : (⟨S1600000x1, .i32⟩ : BufTy).Contents (Elt Ideal) :=
  broadcastInDim S1600000x1 ![0] bcast_S1600000_S1600000x1_0
    (select (cmpi .slt (srcA ei) (broadcastInDim S1600000 ![] bcast_S_S1600000 (constantI S_ 32 0#32)))
      (addi (srcA ei) (broadcastInDim S1600000 ![] bcast_S_S1600000 (constantI S_ 32 100000#32)))
      (srcA ei))
def segSum (ei : EI) (g : Mx) : Mx :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 (dstA ei))
    (Host.gather gather_S100000x64_S1600000x1_S1600000x64_1_0_n_n_0_1_164 g (sidxA ei))
def cmaxA (ei : EI) : FVec Ideal S100000x1 .f32 :=
  broadcastInDim S100000x1 ![0] bcast_S100000_S100000x1_0
    (maximumf (cntA ei) (broadcastInDim S100000 ![] bcast_S_S100000 (constant (F := Ideal) S_ .f32 0x3F800000#32)))

/-- The kernel program's result as one function of its two inputs. -/
def kernelOut (x : Mx) (ei : EI) : Mx :=
  let d := dcolA ei
  let acc0 := Cert.Spec.scaleAlpha (F := Ideal) x
  let g0 := Cert.Spec.scaleRows (F := Ideal) x d
  let s1 := segSum ei g0
  let h1 := Cert.Spec.stepH (F := Ideal) x d s1
  let g1 := Cert.Spec.stepG (F := Ideal) x d s1
  let acc1 := Cert.Spec.stepAcc (F := Ideal) x d s1 acc0
  let s2 := segSum ei g1
  let h2 := Cert.Spec.stepH (F := Ideal) h1 d s2
  let g2 := Cert.Spec.stepG (F := Ideal) h1 d s2
  let acc2 := Cert.Spec.stepAcc (F := Ideal) h1 d s2 acc1
  let s3 := segSum ei g2
  let hr := Cert.Spec.stepRelu (F := Ideal) h2 d s3 acc2
  let agg := segSum ei hr
  Cert.Spec.meanOut (F := Ideal) agg (cmaxA ei) x

/-! ## The index arrays at an index -/

/-- Entry e of the sources is the word at (0, e) of edge_index. -/
theorem srcA_apply (ei : EI) (e : Fin 1600000) : srcA ei (ix1 e) = ei (ix2 (0 : Fin 2) e) := by
  unfold srcA
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] ei slices_S2x1600000_S1x1600000_0_0 _ (ix2 (0 : Fin 2) e) (fun a => match a with
    | ⟨0, _⟩ => by show (0 : Nat) = 0 + 0; omega
    | ⟨1, _⟩ => by show e.val = 0 + e.val; omega)

/-- Entry e of the targets is the word at (1, e) of edge_index. -/
theorem dstA_apply (ei : EI) (e : Fin 1600000) : dstA ei (ix1 e) = ei (ix2 (1 : Fin 2) e) := by
  unfold dstA
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei slices_S2x1600000_S1x1600000_1_0 _ (ix2 (1 : Fin 2) e) (fun a => match a with
    | ⟨0, _⟩ => by show (1 : Nat) = 1 + 0; omega
    | ⟨1, _⟩ => by show e.val = 0 + e.val; omega)

/-- A flat array of 1600000 entries re-laid as a column, at entry (e, 0). -/
theorem col_apply {α : Type} (v : S1600000.Idx → α) (e : Fin 1600000) :
    broadcastInDim S1600000x1 ![0] bcast_S1600000_S1600000x1_0 v (colIdx e) = v (ix1 e) :=
  broadcastInDim_apply _ bcast_S1600000_S1600000x1_0 v (colIdx e) (ix1 e) (fun a => match a with
    | ⟨0, _⟩ => by show e.val = if (1600000 : Nat) = 1 then 0 else e.val; rw [if_neg (by decide)])

/-- A scalar splat over any shape, at any entry. -/
theorem splat_apply {α : Type} {t : Shape} (h : S_.BroadcastsInDim t ![]) (v : S_.Idx → α) (i : t.Idx) :
    broadcastInDim t ![] h v i = v ix0 :=
  broadcastInDim_apply _ h v i ix0 (fun a => a.elim0)

/-- The picking row of edge e: its source word, wrapped and clamped. -/
theorem sidxA_row (ei : EI) (e : Fin 1600000) :
    clampRow 100000 (by decide) (sidxA ei (colIdx e)) = Cert.Spec.srcRow ei e := by
  unfold sidxA Cert.Spec.srcRow
  rw [col_apply]
  show clampRow 100000 _ (Scalar.select (IntOp.cmpi .slt (srcA ei (ix1 e)) (broadcastInDim S1600000 ![] bcast_S_S1600000 (constantI S_ 32 0#32) (ix1 e)))
    (IntOp.addi (srcA ei (ix1 e)) (broadcastInDim S1600000 ![] bcast_S_S1600000 (constantI S_ 32 100000#32) (ix1 e))) (srcA ei (ix1 e))) = _
  rw [splat_apply, splat_apply, srcA_apply]
  rfl

/-- The adding integer of edge e: its target word, signed. -/
theorem dcol_int (ei : EI) (e : Fin 1600000) :
    (broadcastInDim S1600000x1 ![0] bcast_S1600000_S1600000x1_0 (dstA ei) (colIdx e)).toInt = Cert.Spec.dstInt ei e := by
  rw [col_apply, dstA_apply]; rfl

end Cert.KernelIdeal.Host

end
-- ==== Proof.RegionValue0.lean ====
/-
  What region 0 of the idealized kernel program leaves in its result arrays, as whole-array functions of the
  arrays it reads: every grid point writes back one block of 4000 rows, the block is the pointwise function of
  the operands' blocks of the same rows, and the 25 blocks cover the array.
-/
import proofs.«100325_j31980326486703_2_alg».proof.Proof.Gen.KernelIdeal.Frame
import proofs.«100325_j31980326486703_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## Two facts about whole-block accesses -/

/-- The zero offset of a whole-block access: the pair of zeros is the constant function zero. -/
private theorem zeroOff : (![0, 0] : Fin 2 → Nat) = fun _ => 0 := funext fun a => by fin_cases a <;> rfl

/-- A column of 4000 entries spread over 64 features reads, at row p and any feature, the column's entry of row p. -/
private theorem spreadCol {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 0: alpha * x, and the rows of x scaled by the column -/

section Region0
variable (V : (c : Dev nD) → (b : Ref sig .tc) → Buf (Elt F) ((c : Thread nD τ).loc b))

/-- The block index maps of region 0 over its 25 points: every window's row block is the point's number, its
    column block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every one of the 25 row blocks is some point's. -/
theorem onto0 : ∀ q0 : Fin 25, ∃ t : Fin cfg0.N, t.val = q0.val :=
  (by decide +kernel : ∀ q0 : Fin 25, ∃ t : Fin grid0.N, t.val = q0.val)

/-- The first payload at an index: alpha times the loaded entry. -/
theorem pay0_2_at (x0 : Vec F S4000x64 .f32) (p : Fin 4000) (q : Fin 64) :
    k0_pay1 x0 (ix2 p q) = (FloatOps.mulf (FloatOps.ofBits .f32 0x3DCCCCCD#32) (x0 (ix2 p q))) := by
  simp only [k0_pay1, mulf, broadcast]

/-- What point t writes back to the first result is block t of alpha * x. -/
theorem flushed0_2_eq (c : Dev nD) (t : Fin cfg0.N) :
    (dat0 V c).flushed 2 t = ((cfg0.win 2).blk t).view.read (Elt F) (Cert.Spec.scaleAlpha (V c main_arg0)) := by
  show (cfg0.win 2).cut (grid0.coords t) ((dat0 V c).after 2 t) = _
  rw [after0_2]
  unfold out0_2
  rw [View.canon_unit_zero zeroOff]
  simp only [View.ld_unit_zero (S := S4000x64) zeroOff]
  obtain ⟨e0r, e0c, e1r, e1c, e2r, e2c, e3r, e3c⟩ := idx0 t
  funext j
  obtain ⟨p, q, rfl⟩ : ∃ (p : Fin 4000) (q : Fin 64), j = ix2 p q := ⟨j 0, j 1, eq_ix2 j⟩
  refine (pay0_2_at _ p q).trans ?_
  have h0 : iblk0 V c 0 t (ix2 p q) = V c main_arg0 (((cfg0.win 2).blk t).view.emb (ix2 p q)) := by
    show V c main_arg0 (((cfg0.win 0).blk t).view.emb (ix2 p q)) = _
    refine congrArg _ (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 64 + 1 * q.val = win0_2.index t (1 : Fin 2) * 64 + 1 * q.val; omega
  rw [h0]
  rfl

/-- An index of the array is in point t's block of the first result iff each coordinate is in the block's range. -/
theorem mem_blk0_2 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v15_0).slice (win0_2.rect t)).set ↔ _
  rw [View.set_slice_whole, Rect.mem_set_unit]
  exact Iff.rfl

/-- Every index of the first result is in the block of the point numbered by its row divided by 4000. -/
theorem covered0_2 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 4000, by omega⟩
  have ht' : t.val = (i 0).val / 4000 := ht
  obtain ⟨e0r, e0c, e1r, e1c, e2r, e2c, e3r, e3c⟩ := idx0 t
  refine ⟨t, flush0_2 t, ?_⟩
  rw [mem_blk0_2]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The first result after region 0 is alpha * x. -/
theorem final0_2 (c : Dev nD) : (dat0 V c).arrAt 2 cfg0.N = Cert.Spec.scaleAlpha (V c main_arg0) :=
  (dat0 V c).arrAt_eq_of_cover 2 (Cert.Spec.scaleAlpha (V c main_arg0)) (fun t _ => flushed0_2_eq V c t) covered0_2

/-- The second payload at an index: the column's entry of the row times the loaded entry. -/
theorem pay0_3_at (x0 : Vec F S4000x64 .f32) (x1 : Vec F S4000x1 .f32) (p : Fin 4000) (q : Fin 64) :
    k0_pay2 x0 x1 (ix2 p q) = (FloatOps.mulf (x1 (ix2 p (0 : Fin 1))) (x0 (ix2 p q))) := by
  simp only [k0_pay2, mulf, spreadCol, shapeCast_self]

/-- What point t writes back to the second result is block t of the rows of x scaled by the column. -/
theorem flushed0_3_eq (c : Dev nD) (t : Fin cfg0.N) :
    (dat0 V c).flushed 3 t = ((cfg0.win 3).blk t).view.read (Elt F) (Cert.Spec.scaleRows (V c main_arg0) (V c main_v14)) := by
  show (cfg0.win 3).cut (grid0.coords t) ((dat0 V c).after 3 t) = _
  rw [after0_3]
  unfold out0_3
  rw [View.canon_unit_zero zeroOff]
  simp only [View.ld_unit_zero (S := S4000x64) zeroOff, View.ld_unit_zero (S := S4000x1) zeroOff]
  obtain ⟨e0r, e0c, e1r, e1c, e2r, e2c, e3r, e3c⟩ := idx0 t
  funext j
  obtain ⟨p, q, rfl⟩ : ∃ (p : Fin 4000) (q : Fin 64), j = ix2 p q := ⟨j 0, j 1, eq_ix2 j⟩
  refine (pay0_3_at _ _ p q).trans ?_
  have h0 : iblk0 V c 0 t (ix2 p q) = V c main_arg0 (((cfg0.win 3).blk t).view.emb (ix2 p q)) := by
    show V c main_arg0 (((cfg0.win 0).blk t).view.emb (ix2 p q)) = _
    refine congrArg _ (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 64 + 1 * q.val = win0_3.index t (1 : Fin 2) * 64 + 1 * q.val; omega
  have h1 : iblk0 V c 1 t (ix2 p (0 : Fin 1)) = V c main_v14 (Cert.Spec.rowOf (((cfg0.win 3).blk t).view.emb (ix2 p q))) := by
    show V c main_v14 (((cfg0.win 1).blk t).view.emb (ix2 p (0 : Fin 1))) = _
    refine congrArg _ (funext fun a => Fin.ext ?_)
    match a with
    | ⟨0, _⟩ => show win0_1.index t (0 : Fin 2) * 4000 + 1 * p.val = win0_3.index t (0 : Fin 2) * 4000 + 1 * p.val; omega
    | ⟨1, _⟩ => show win0_1.index t (1 : Fin 2) * 1 + 1 * 0 = 0; omega
  rw [h0, h1]
  rfl

/-- An index of the array is in point t's block of the second result iff each coordinate is in the block's range. -/
theorem mem_blk0_3 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v15_1).slice (win0_3.rect t)).set ↔ _
  rw [View.set_slice_whole, Rect.mem_set_unit]
  exact Iff.rfl

/-- Every index of the second result is in the block of the point numbered by its row divided by 4000. -/
theorem covered0_3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := onto0 ⟨(i 0).val / 4000, by omega⟩
  have ht' : t.val = (i 0).val / 4000 := ht
  obtain ⟨e0r, e0c, e1r, e1c, e2r, e2c, e3r, e3c⟩ := idx0 t
  refine ⟨t, flush0_3 t, ?_⟩
  rw [mem_blk0_3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- The second result after region 0 is x with every row scaled by the column's entry of that row. -/
theorem final0_3 (c : Dev nD) : (dat0 V c).arrAt 3 cfg0.N = Cert.Spec.scaleRows (V c main_arg0) (V c main_v14) :=
  (dat0 V c).arrAt_eq_of_cover 3 (Cert.Spec.scaleRows (V c main_arg0) (V c main_v14)) (fun t _ => flushed0_3_eq V c t) covered0_3

end Region0

end Cert.KernelIdeal.RegionValue

end
-- ==== Proof.RegionValue1.lean ====
/-
  What region 1 of the idealized kernel program leaves in its result arrays, as whole-array functions of the
  arrays it reads: every grid point writes back one block of 4000 rows, the block is the pointwise function of
  the operands' blocks of the same rows, and the 25 blocks cover the array.
-/
import proofs.«100325_j31980326486703_2_alg».proof.Proof.Gen.KernelIdeal.Frame
import proofs.«100325_j31980326486703_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## Two facts about whole-block accesses -/

/-- The zero offset of a whole-block access: the pair of zeros is the constant function zero. -/
private theorem zeroOff : (![0, 0] : Fin 2 → Nat) = fun _ => 0 := funext fun a => by fin_cases a <;> rfl

/-- A column of 4000 entries spread over 64 features reads, at row p and any feature, the column's entry of row p. -/
private theorem spreadCol {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 1: the first propagation step -/

section Region1
variable (V : (c : Dev nD) → (b : Ref sig .tc) → Buf (Elt F) ((c : Thread nD τ).loc b))

/-- The block index maps of region 1 over its 25 points: every window's row block is the point's number, its
    column block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Every one of the 25 row blocks is some point's. -/
theorem onto1 : ∀ q0 : Fin 25, ∃ t : Fin cfg1.N, t.val = q0.val :=
  (by decide +kernel : ∀ q0 : Fin 25, ∃ t : Fin grid1.N, t.val = q0.val)

/-- The propagated row at an index: d * s + (d * d) * h, with d the column's entry of the row. -/
theorem pay1_4_at (x0 : Vec F S4000x64 .f32) (x1 : Vec F S4000x1 .f32) (x2 : Vec F S4000x64 .f32) (p : Fin 4000) (q : Fin 64) :
    k1_pay2 x0 x1 x2 (ix2 p q) = (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q)))) := by
  simp only [k1_pay2, k1_pay1, mulf, addf, spreadCol, shapeCast_self]

/-- What point t writes back to the propagated features is block t of the factored step of the operands. -/
theorem flushed1_4_eq (c : Dev nD) (t : Fin cfg1.N) :
    (dat1 V c).flushed 4 t = ((cfg1.win 4).blk t).view.read (Elt F) (Cert.Spec.stepH (V c main_arg0) (V c main_v14) (V c main_v25)) := by
  show (cfg1.win 4).cut (grid1.coords t) ((dat1 V c).after 4 t) = _
  rw [after1_4]
  unfold out1_4
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx1 t
  funext j
  obtain ⟨p, q, rfl⟩ : ∃ (p : Fin 4000) (q : Fin 64), j = ix2 p q := ⟨j 0, j 1, eq_ix2 j⟩
  refine (pay1_4_at _ _ _ p q).trans ?_
  have h0 : iblk1 V c 0 t (ix2 p q) = V c main_arg0 (((cfg1.win 4).blk t).view.emb (ix2 p q)) := by
    show V c main_arg0 (((cfg1.win 0).blk t).view.emb (ix2 p q)) = _
    refine congrArg _ (funext fun a => Fin.ext ?_)
    match a with
    | ⟨0, _⟩ => show win1_0.index t (0 : Fin 2) * 4000 + 1 * p.val = win1_4.index t (0 : Fin 2) * 4000 + 1 * p.val; omega
    | ⟨1, _⟩ => show win1_0.index t (1 : Fin 2) * 64 + 1 * q.val = win1_4.index t (1 : Fin 2) * 64 + 1 * q.val; omega
  have h1 : iblk1 V c 1 t (ix2 p (0 : Fin 1)) = V c main_v14 (Cert.Spec.rowOf (((cfg1.win 4).blk t).view.emb (ix2 p q))) := by
    show V c main_v14 (((cfg1.win 1).blk t).view.emb (ix2 p (0 : Fin 1))) = _
    refine congrArg _ (funext fun a => Fin.ext ?_)
    match a with
    | ⟨0, _⟩ => show win1_1.index t (0 : Fin 2) * 4000 + 1 * p.val = win1_4.index t (0 : Fin 2) * 4000 + 1 * p.val; omega
    | ⟨1, _⟩ => show win1_1.index t (1 : Fin 2) * 1 + 1 * 0 = 0; omega
  have h2 : iblk1 V c 2 t (ix2 p q) = V c main_v25 (((cfg1.win 4).blk t).view.emb (ix2 p q)) := by
    show V c main_v25 (((cfg1.win 2).blk t).view.emb (ix2 p q)) = _
    refine congrArg _ (funext fun a => Fin.ext ?_)
    match a with
    | ⟨0, _⟩ => show win1_2.index t (0 : Fin 2) * 4000 + 1 * p.val = win1_4.index t (0 : Fin 2) * 4000 + 1 * p.val; omega
    | ⟨1, _⟩ => show win1_2.index t (1 : Fin 2) * 64 + 1 * q.val = win1_4.index t (1 : Fin 2) * 64 + 1 * q.val; omega
  rw [h0, h1, h2]
  rfl

/-- An index of the array is in point t's block of the propagated features iff each coordinate is in the block's range. -/
theorem mem_blk1_4 (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v26_0).slice (win1_4.rect t)).set ↔ _
  rw [View.set_slice_whole, Rect.mem_set_unit]
  exact Iff.rfl

/-- Every index of the propagated features is in the block of the point numbered by its row divided by 4000. -/
theorem covered1_4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := onto1 ⟨(i 0).val / 4000, by omega⟩
  have ht' : t.val = (i 0).val / 4000 := ht
  obtain ⟨e0r, e0c, e1r, e1c, e2r, e2c, e3r, e3c, e4r, e4c, e5r, e5c, e6r, e6c⟩ := idx1 t
  refine ⟨t, flush1_4 t, ?_⟩
  rw [mem_blk1_4]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- The propagated features after region 1 are the factored step of h, the column d and the gathered sums s. -/
theorem final1_4 (c : Dev nD) : (dat1 V c).arrAt 4 cfg1.N = Cert.Spec.stepH (V c main_arg0) (V c main_v14) (V c main_v25) :=
  (dat1 V c).arrAt_eq_of_cover 4 (Cert.Spec.stepH (V c main_arg0) (V c main_v14) (V c main_v25)) (fun t _ => flushed1_4_eq V c t) covered1_4

/-- The next pre-scaled row at an index: d times the propagated row. -/
theorem pay1_5_at (x0 : Vec F S4000x64 .f32) (x1 : Vec F S4000x1 .f32) (x2 : Vec F S4000x64 .f32) (p : Fin 4000) (q : Fin 64) :
    k1_pay3 x0 x1 x2 (ix2 p q) = (FloatOps.mulf (x1 (ix2 p (0 : Fin 1))) (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q))))) := by
  simp only [k1_pay3, k1_pay2, k1_pay1, mulf, addf, spreadCol, shapeCast_self]

/-- What point t writes back to the pre-scaled features is block t of the column times the factored step. -/
theorem flushed1_5_eq (c : Dev nD) (t : Fin cfg1.N) :
    (dat1 V c).flushed 5 t = ((cfg1.win 5).blk t).view.read (Elt F) (Cert.Spec.stepG (V c main_arg0) (V c main_v14) (V c main_v25)) := by
  show (cfg1.win 5).cut (grid1.coords t) ((dat1 V c).after 5 t) = _
  rw [after1_5]
  unfold out1_5
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx1 t
  funext j
  obtain ⟨p, q, rfl⟩ : ∃ (p : Fin 4000) (q : Fin 64), j = ix2 p q := ⟨j 0, j 1, eq_ix2 j⟩
  refine (pay1_5_at _ _ _ p q).trans ?_
  have h0 : iblk1 V c 0 t (ix2 p q) = V c main_arg0 (((cfg1.win 5).blk t).view.emb (ix2 p q)) := by
    show V c main_arg0 (((cfg1.win 0).blk t).view.emb (ix2 p q)) = _
    refine congrArg _ (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 64 + 1 * q.val = win1_5.index t (1 : Fin 2) * 64 + 1 * q.val; omega
  have h1 : iblk1 V c 1 t (ix2 p (0 : Fin 1)) = V c main_v14 (Cert.Spec.rowOf (((cfg1.win 5).blk t).view.emb (ix2 p q))) := by
    show V c main_v14 (((cfg1.win 1).blk t).view.emb (ix2 p (0 : Fin 1))) = _
    refine congrArg _ (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 1 + 1 * 0 = 0; omega
  have h2 : iblk1 V c 2 t (ix2 p q) = V c main_v25 (((cfg1.win 5).blk t).view.emb (ix2 p q)) := by
    show V c main_v25 (((cfg1.win 2).blk t).view.emb (ix2 p q)) = _
    refine congrArg _ (funext fun a => Fin.ext ?_)
    match a with
    | ⟨0, _⟩ => show win1_2.index t (0 : Fin 2) * 4000 + 1 * p.val = win1_5.index t (0 : Fin 2) * 4000 + 1 * p.val; omega
    | ⟨1, _⟩ => show win1_2.index t (1 : Fin 2) * 64 + 1 * q.val = win1_5.index t (1 : Fin 2) * 64 + 1 * q.val; omega
  rw [h0, h1, h2]
  rfl

/-- An index of the array is in point t's block of the pre-scaled features iff each coordinate is in the block's range. -/
theorem mem_blk1_5 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v26_1).slice (win1_5.rect t)).set ↔ _
  rw [View.set_slice_whole, Rect.mem_set_unit]
  exact Iff.rfl

/-- Every index of the pre-scaled features is in the block of the point numbered by its row divided by 4000. -/
theorem covered1_5 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := onto1 ⟨(i 0).val / 4000, by omega⟩
  have ht' : t.val = (i 0).val / 4000 := ht
  obtain ⟨e0r, e0c, e1r, e1c, e2r, e2c, e3r, e3c, e4r, e4c, e5r, e5c, e6r, e6c⟩ := idx1 t
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- The pre-scaled features after region 1 are the column times the factored step. -/
theorem final1_5 (c : Dev nD) : (dat1 V c).arrAt 5 cfg1.N = Cert.Spec.stepG (V c main_arg0) (V c main_v14) (V c main_v25) :=
  (dat1 V c).arrAt_eq_of_cover 5 (Cert.Spec.stepG (V c main_arg0) (V c main_v14) (V c main_v25)) (fun t _ => flushed1_5_eq V c t) covered1_5

/-- The next accumulator at an index: the accumulator plus coef times the propagated row. -/
theorem pay1_6_at (x0 : Vec F S4000x64 .f32) (x1 : Vec F S4000x1 .f32) (x2 : Vec F S4000x64 .f32) (x3 : Vec F S4000x64 .f32) (p : Fin 4000) (q : Fin 64) :
    k1_pay4 x0 x1 x2 x3 (ix2 p q) = (FloatOps.addf (x3 (ix2 p q)) (FloatOps.mulf (FloatOps.ofBits .f32 0x3E99999A#32) (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q)))))) := by
  simp only [k1_pay4, k1_pay2, k1_pay1, mulf, addf, broadcast, spreadCol, shapeCast_self]

/-- What point t writes back to the accumulator is block t of the accumulator plus coef times the factored step. -/
theorem flushed1_6_eq (c : Dev nD) (t : Fin cfg1.N) :
    (dat1 V c).flushed 6 t = ((cfg1.win 6).blk t).view.read (Elt F) (Cert.Spec.stepAcc (V c main_arg0) (V c main_v14) (V c main_v25) (V c main_v15_0)) := by
  show (cfg1.win 6).cut (grid1.coords t) ((dat1 V c).after 6 t) = _
  rw [after1_6]
  unfold out1_6
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx1 t
  funext j
  obtain ⟨p, q, rfl⟩ : ∃ (p : Fin 4000) (q : Fin 64), j = ix2 p q := ⟨j 0, j 1, eq_ix2 j⟩
  refine (pay1_6_at _ _ _ _ p q).trans ?_
  have h0 : iblk1 V c 0 t (ix2 p q) = V c main_arg0 (((cfg1.win 6).blk t).view.emb (ix2 p q)) := by
    show V c main_arg0 (((cfg1.win 0).blk t).view.emb (ix2 p q)) = _
    refine congrArg _ (funext fun a => Fin.ext ?_)
    match a with
    | ⟨0, _⟩ => show win1_0.index t (0 : Fin 2) * 4000 + 1 * p.val = win1_6.index t (0 : Fin 2) * 4000 + 1 * p.val; omega
    | ⟨1, _⟩ => show win1_0.index t (1 : Fin 2) * 64 + 1 * q.val = win1_6.index t (1 : Fin 2) * 64 + 1 * q.val; omega
  have h1 : iblk1 V c 1 t (ix2 p (0 : Fin 1)) = V c main_v14 (Cert.Spec.rowOf (((cfg1.win 6).blk t).view.emb (ix2 p q))) := by
    show V c main_v14 (((cfg1.win 1).blk t).view.emb (ix2 p (0 : Fin 1))) = _
    refine congrArg _ (funext fun a => Fin.ext ?_)
    match a with
    | ⟨0, _⟩ => show win1_1.index t (0 : Fin 2) * 4000 + 1 * p.val = win1_6.index t (0 : Fin 2) * 4000 + 1 * p.val; omega
    | ⟨1, _⟩ => show win1_1.index t (1 : Fin 2) * 1 + 1 * 0 = 0; omega
  have h2 : iblk1 V c 2 t (ix2 p q) = V c main_v25 (((cfg1.win 6).blk t).view.emb (ix2 p q)) := by
    show V c main_v25 (((cfg1.win 2).blk t).view.emb (ix2 p q)) = _
    refine congrArg _ (funext fun a => Fin.ext ?_)
    match a with
    | ⟨0, _⟩ => show win1_2.index t (0 : Fin 2) * 4000 + 1 * p.val = win1_6.index t (0 : Fin 2) * 4000 + 1 * p.val; omega
    | ⟨1, _⟩ => show win1_2.index t (1 : Fin 2) * 64 + 1 * q.val = win1_6.index t (1 : Fin 2) * 64 + 1 * q.val; omega
  have h3 : iblk1 V c 3 t (ix2 p q) = V c main_v15_0 (((cfg1.win 6).blk t).view.emb (ix2 p q)) := by
    show V c main_v15_0 (((cfg1.win 3).blk t).view.emb (ix2 p q)) = _
    refine congrArg _ (funext fun a => Fin.ext ?_)
    match a with
    | ⟨0, _⟩ => show win1_3.index t (0 : Fin 2) * 4000 + 1 * p.val = win1_6.index t (0 : Fin 2) * 4000 + 1 * p.val; omega
    | ⟨1, _⟩ => show win1_3.index t (1 : Fin 2) * 64 + 1 * q.val = win1_6.index t (1 : Fin 2) * 64 + 1 * q.val; omega
  rw [h0, h1, h2, h3]
  rfl

/-- An index of the array is in point t's block of the accumulator iff each coordinate is in the block's range. -/
theorem mem_blk1_6 (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v26_2).slice (win1_6.rect t)).set ↔ _
  rw [View.set_slice_whole, Rect.mem_set_unit]
  exact Iff.rfl

/-- Every index of the accumulator is in the block of the point numbered by its row divided by 4000. -/
theorem covered1_6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := onto1 ⟨(i 0).val / 4000, by omega⟩
  have ht' : t.val = (i 0).val / 4000 := ht
  obtain ⟨e0r, e0c, e1r, e1c, e2r, e2c, e3r, e3c, e4r, e4c, e5r, e5c, e6r, e6c⟩ := idx1 t
  refine ⟨t, flush1_6 t, ?_⟩
  rw [mem_blk1_6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The accumulator after region 1 is the one it found plus coef times the factored step. -/
theorem final1_6 (c : Dev nD) : (dat1 V c).arrAt 6 cfg1.N = Cert.Spec.stepAcc (V c main_arg0) (V c main_v14) (V c main_v25) (V c main_v15_0) :=
  (dat1 V c).arrAt_eq_of_cover 6 (Cert.Spec.stepAcc (V c main_arg0) (V c main_v14) (V c main_v25) (V c main_v15_0)) (fun t _ => flushed1_6_eq V c t) covered1_6

end Region1

end Cert.KernelIdeal.RegionValue

end
-- ==== Proof.RegionValue2.lean ====
/-
  What region 2 of the idealized kernel program leaves in its result arrays, as whole-array functions of the
  arrays it reads: every grid point writes back one block of 4000 rows, the block is the pointwise function of
  the operands' blocks of the same rows, and the 25 blocks cover the array.
-/
import proofs.«100325_j31980326486703_2_alg».proof.Proof.Gen.KernelIdeal.Frame
import proofs.«100325_j31980326486703_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## Two facts about whole-block accesses -/

/-- The zero offset of a whole-block access: the pair of zeros is the constant function zero. -/
private theorem zeroOff : (![0, 0] : Fin 2 → Nat) = fun _ => 0 := funext fun a => by fin_cases a <;> rfl

/-- A column of 4000 entries spread over 64 features reads, at row p and any feature, the column's entry of row p. -/
private theorem spreadCol {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 2: the second propagation step -/

section Region2
variable (V : (c : Dev nD) → (b : Ref sig .tc) → Buf (Elt F) ((c : Thread nD τ).loc b))

/-- The block index maps of region 2 over its 25 points: every window's row block is the point's number, its
    column block 0. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Every one of the 25 row blocks is some point's. -/
theorem onto2 : ∀ q0 : Fin 25, ∃ t : Fin cfg2.N, t.val = q0.val :=
  (by decide +kernel : ∀ q0 : Fin 25, ∃ t : Fin grid2.N, t.val = q0.val)

/-- The propagated row at an index: d * s + (d * d) * h, with d the column's entry of the row. -/
theorem pay2_4_at (x0 : Vec F S4000x64 .f32) (x1 : Vec F S4000x1 .f32) (x2 : Vec F S4000x64 .f32) (p : Fin 4000) (q : Fin 64) :
    k2_pay2 x0 x1 x2 (ix2 p q) = (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q)))) := by
  simp only [k2_pay2, k2_pay1, mulf, addf, spreadCol, shapeCast_self]

/-- What point t writes back to the propagated features is block t of the factored step of the operands. -/
theorem flushed2_4_eq (c : Dev nD) (t : Fin cfg2.N) :
    (dat2 V c).flushed 4 t = ((cfg2.win 4).blk t).view.read (Elt F) (Cert.Spec.stepH (V c main_v26_0) (V c main_v14) (V c main_v36)) := by
  show (cfg2.win 4).cut (grid2.coords t) ((dat2 V c).after 4 t) = _
  rw [after2_4]
  unfold out2_4
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx2 t
  funext j
  obtain ⟨p, q, rfl⟩ : ∃ (p : Fin 4000) (q : Fin 64), j = ix2 p q := ⟨j 0, j 1, eq_ix2 j⟩
  refine (pay2_4_at _ _ _ p q).trans ?_
  have h0 : iblk2 V c 0 t (ix2 p q) = V c main_v26_0 (((cfg2.win 4).blk t).view.emb (ix2 p q)) := by
    show V c main_v26_0 (((cfg2.win 0).blk t).view.emb (ix2 p q)) = _
    refine congrArg _ (funext fun a => Fin.ext ?_)
    match a with
    | ⟨0, _⟩ => show win2_0.index t (0 : Fin 2) * 4000 + 1 * p.val = win2_4.index t (0 : Fin 2) * 4000 + 1 * p.val; omega
    | ⟨1, _⟩ => show win2_0.index t (1 : Fin 2) * 64 + 1 * q.val = win2_4.index t (1 : Fin 2) * 64 + 1 * q.val; omega
  have h1 : iblk2 V c 1 t (ix2 p (0 : Fin 1)) = V c main_v14 (Cert.Spec.rowOf (((cfg2.win 4).blk t).view.emb (ix2 p q))) := by
    show V c main_v14 (((cfg2.win 1).blk t).view.emb (ix2 p (0 : Fin 1))) = _
    refine congrArg _ (funext fun a => Fin.ext ?_)
    match a with
    | ⟨0, _⟩ => show win2_1.index t (0 : Fin 2) * 4000 + 1 * p.val = win2_4.index t (0 : Fin 2) * 4000 + 1 * p.val; omega
    | ⟨1, _⟩ => show win2_1.index t (1 : Fin 2) * 1 + 1 * 0 = 0; omega
  have h2 : iblk2 V c 2 t (ix2 p q) = V c main_v36 (((cfg2.win 4).blk t).view.emb (ix2 p q)) := by
    show V c main_v36 (((cfg2.win 2).blk t).view.emb (ix2 p q)) = _
    refine congrArg _ (funext fun a => Fin.ext ?_)
    match a with
    | ⟨0, _⟩ => show win2_2.index t (0 : Fin 2) * 4000 + 1 * p.val = win2_4.index t (0 : Fin 2) * 4000 + 1 * p.val; omega
    | ⟨1, _⟩ => show win2_2.index t (1 : Fin 2) * 64 + 1 * q.val = win2_4.index t (1 : Fin 2) * 64 + 1 * q.val; omega
  rw [h0, h1, h2]
  rfl

/-- An index of the array is in point t's block of the propagated features iff each coordinate is in the block's range. -/
theorem mem_blk2_4 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v37_0).slice (win2_4.rect t)).set ↔ _
  rw [View.set_slice_whole, Rect.mem_set_unit]
  exact Iff.rfl

/-- Every index of the propagated features is in the block of the point numbered by its row divided by 4000. -/
theorem covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := onto2 ⟨(i 0).val / 4000, by omega⟩
  have ht' : t.val = (i 0).val / 4000 := ht
  obtain ⟨e0r, e0c, e1r, e1c, e2r, e2c, e3r, e3c, e4r, e4c, e5r, e5c, e6r, e6c⟩ := idx2 t
  refine ⟨t, flush2_4 t, ?_⟩
  rw [mem_blk2_4]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 64 ≤ (i 1).val ∧ (i 1).val < win2_4.index t (1 : Fin 2) * 64 + 64; omega

/-- The propagated features after region 2 are the factored step of h, the column d and the gathered sums s. -/
theorem final2_4 (c : Dev nD) : (dat2 V c).arrAt 4 cfg2.N = Cert.Spec.stepH (V c main_v26_0) (V c main_v14) (V c main_v36) :=
  (dat2 V c).arrAt_eq_of_cover 4 (Cert.Spec.stepH (V c main_v26_0) (V c main_v14) (V c main_v36)) (fun t _ => flushed2_4_eq V c t) covered2_4

/-- The next pre-scaled row at an index: d times the propagated row. -/
theorem pay2_5_at (x0 : Vec F S4000x64 .f32) (x1 : Vec F S4000x1 .f32) (x2 : Vec F S4000x64 .f32) (p : Fin 4000) (q : Fin 64) :
    k2_pay3 x0 x1 x2 (ix2 p q) = (FloatOps.mulf (x1 (ix2 p (0 : Fin 1))) (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q))))) := by
  simp only [k2_pay3, k2_pay2, k2_pay1, mulf, addf, spreadCol, shapeCast_self]

/-- What point t writes back to the pre-scaled features is block t of the column times the factored step. -/
theorem flushed2_5_eq (c : Dev nD) (t : Fin cfg2.N) :
    (dat2 V c).flushed 5 t = ((cfg2.win 5).blk t).view.read (Elt F) (Cert.Spec.stepG (V c main_v26_0) (V c main_v14) (V c main_v36)) := by
  show (cfg2.win 5).cut (grid2.coords t) ((dat2 V c).after 5 t) = _
  rw [after2_5]
  unfold out2_5
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx2 t
  funext j
  obtain ⟨p, q, rfl⟩ : ∃ (p : Fin 4000) (q : Fin 64), j = ix2 p q := ⟨j 0, j 1, eq_ix2 j⟩
  refine (pay2_5_at _ _ _ p q).trans ?_
  have h0 : iblk2 V c 0 t (ix2 p q) = V c main_v26_0 (((cfg2.win 5).blk t).view.emb (ix2 p q)) := by
    show V c main_v26_0 (((cfg2.win 0).blk t).view.emb (ix2 p q)) = _
    refine congrArg _ (funext fun a => Fin.ext ?_)
    match a with
    | ⟨0, _⟩ => show win2_0.index t (0 : Fin 2) * 4000 + 1 * p.val = win2_5.index t (0 : Fin 2) * 4000 + 1 * p.val; omega
    | ⟨1, _⟩ => show win2_0.index t (1 : Fin 2) * 64 + 1 * q.val = win2_5.index t (1 : Fin 2) * 64 + 1 * q.val; omega
  have h1 : iblk2 V c 1 t (ix2 p (0 : Fin 1)) = V c main_v14 (Cert.Spec.rowOf (((cfg2.win 5).blk t).view.emb (ix2 p q))) := by
    show V c main_v14 (((cfg2.win 1).blk t).view.emb (ix2 p (0 : Fin 1))) = _
    refine congrArg _ (funext fun a => Fin.ext ?_)
    match a with
    | ⟨0, _⟩ => show win2_1.index t (0 : Fin 2) * 4000 + 1 * p.val = win2_5.index t (0 : Fin 2) * 4000 + 1 * p.val; omega
    | ⟨1, _⟩ => show win2_1.index t (1 : Fin 2) * 1 + 1 * 0 = 0; omega
  have h2 : iblk2 V c 2 t (ix2 p q) = V c main_v36 (((cfg2.win 5).blk t).view.emb (ix2 p q)) := by
    show V c main_v36 (((cfg2.win 2).blk t).view.emb (ix2 p q)) = _
    refine congrArg _ (funext fun a => Fin.ext ?_)
    match a with
    | ⟨0, _⟩ => show win2_2.index t (0 : Fin 2) * 4000 + 1 * p.val = win2_5.index t (0 : Fin 2) * 4000 + 1 * p.val; omega
    | ⟨1, _⟩ => show win2_2.index t (1 : Fin 2) * 64 + 1 * q.val = win2_5.index t (1 : Fin 2) * 64 + 1 * q.val; omega
  rw [h0, h1, h2]
  rfl

/-- An index of the array is in point t's block of the pre-scaled features iff each coordinate is in the block's range. -/
theorem mem_blk2_5 (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v37_1).slice (win2_5.rect t)).set ↔ _
  rw [View.set_slice_whole, Rect.mem_set_unit]
  exact Iff.rfl

/-- Every index of the pre-scaled features is in the block of the point numbered by its row divided by 4000. -/
theorem covered2_5 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := onto2 ⟨(i 0).val / 4000, by omega⟩
  have ht' : t.val = (i 0).val / 4000 := ht
  obtain ⟨e0r, e0c, e1r, e1c, e2r, e2c, e3r, e3c, e4r, e4c, e5r, e5c, e6r, e6c⟩ := idx2 t
  refine ⟨t, flush2_5 t, ?_⟩
  rw [mem_blk2_5]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 64 ≤ (i 1).val ∧ (i 1).val < win2_5.index t (1 : Fin 2) * 64 + 64; omega

/-- The pre-scaled features after region 2 are the column times the factored step. -/
theorem final2_5 (c : Dev nD) : (dat2 V c).arrAt 5 cfg2.N = Cert.Spec.stepG (V c main_v26_0) (V c main_v14) (V c main_v36) :=
  (dat2 V c).arrAt_eq_of_cover 5 (Cert.Spec.stepG (V c main_v26_0) (V c main_v14) (V c main_v36)) (fun t _ => flushed2_5_eq V c t) covered2_5

/-- The next accumulator at an index: the accumulator plus coef times the propagated row. -/
theorem pay2_6_at (x0 : Vec F S4000x64 .f32) (x1 : Vec F S4000x1 .f32) (x2 : Vec F S4000x64 .f32) (x3 : Vec F S4000x64 .f32) (p : Fin 4000) (q : Fin 64) :
    k2_pay4 x0 x1 x2 x3 (ix2 p q) = (FloatOps.addf (x3 (ix2 p q)) (FloatOps.mulf (FloatOps.ofBits .f32 0x3E99999A#32) (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q)))))) := by
  simp only [k2_pay4, k2_pay2, k2_pay1, mulf, addf, broadcast, spreadCol, shapeCast_self]

/-- What point t writes back to the accumulator is block t of the accumulator plus coef times the factored step. -/
theorem flushed2_6_eq (c : Dev nD) (t : Fin cfg2.N) :
    (dat2 V c).flushed 6 t = ((cfg2.win 6).blk t).view.read (Elt F) (Cert.Spec.stepAcc (V c main_v26_0) (V c main_v14) (V c main_v36) (V c main_v26_2)) := by
  show (cfg2.win 6).cut (grid2.coords t) ((dat2 V c).after 6 t) = _
  rw [after2_6]
  unfold out2_6
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c, e5r, e5c, e6r, e6c⟩ := idx2 t
  funext j
  obtain ⟨p, q, rfl⟩ : ∃ (p : Fin 4000) (q : Fin 64), j = ix2 p q := ⟨j 0, j 1, eq_ix2 j⟩
  refine (pay2_6_at _ _ _ _ p q).trans ?_
  have h0 : iblk2 V c 0 t (ix2 p q) = V c main_v26_0 (((cfg2.win 6).blk t).view.emb (ix2 p q)) := by
    show V c main_v26_0 (((cfg2.win 0).blk t).view.emb (ix2 p q)) = _
    refine congrArg _ (funext fun a => Fin.ext ?_)
    match a with
    | ⟨0, _⟩ => show win2_0.index t (0 : Fin 2) * 4000 + 1 * p.val = win2_6.index t (0 : Fin 2) * 4000 + 1 * p.val; omega
    | ⟨1, _⟩ => show win2_0.index t (1 : Fin 2) * 64 + 1 * q.val = win2_6.index t (1 : Fin 2) * 64 + 1 * q.val; omega
  have h1 : iblk2 V c 1 t (ix2 p (0 : Fin 1)) = V c main_v14 (Cert.Spec.rowOf (((cfg2.win 6).blk t).view.emb (ix2 p q))) := by
    show V c main_v14 (((cfg2.win 1).blk t).view.emb (ix2 p (0 : Fin 1))) = _
    refine congrArg _ (funext fun a => Fin.ext ?_)
    match a with
    | ⟨0, _⟩ => show win2_1.index t (0 : Fin 2) * 4000 + 1 * p.val = win2_6.index t (0 : Fin 2) * 4000 + 1 * p.val; omega
    | ⟨1, _⟩ => show win2_1.index t (1 : Fin 2) * 1 + 1 * 0 = 0; omega
  have h2 : iblk2 V c 2 t (ix2 p q) = V c main_v36 (((cfg2.win 6).blk t).view.emb (ix2 p q)) := by
    show V c main_v36 (((cfg2.win 2).blk t).view.emb (ix2 p q)) = _
    refine congrArg _ (funext fun a => Fin.ext ?_)
    match a with
    | ⟨0, _⟩ => show win2_2.index t (0 : Fin 2) * 4000 + 1 * p.val = win2_6.index t (0 : Fin 2) * 4000 + 1 * p.val; omega
    | ⟨1, _⟩ => show win2_2.index t (1 : Fin 2) * 64 + 1 * q.val = win2_6.index t (1 : Fin 2) * 64 + 1 * q.val; omega
  have h3 : iblk2 V c 3 t (ix2 p q) = V c main_v26_2 (((cfg2.win 6).blk t).view.emb (ix2 p q)) := by
    show V c main_v26_2 (((cfg2.win 3).blk t).view.emb (ix2 p q)) = _
    refine congrArg _ (funext fun a => Fin.ext ?_)
    match a with
    | ⟨0, _⟩ => show win2_3.index t (0 : Fin 2) * 4000 + 1 * p.val = win2_6.index t (0 : Fin 2) * 4000 + 1 * p.val; omega
    | ⟨1, _⟩ => show win2_3.index t (1 : Fin 2) * 64 + 1 * q.val = win2_6.index t (1 : Fin 2) * 64 + 1 * q.val; omega
  rw [h0, h1, h2, h3]
  rfl

/-- An index of the array is in point t's block of the accumulator iff each coordinate is in the block's range. -/
theorem mem_blk2_6 (t : Fin cfg2.N) (i : S100000x64.Idx) :
    i ∈ ((cfg2.win 6).blk t).view.set ↔ ∀ a : Fin 2, win2_6.index t a * S4000x64.size a ≤ (i a).val ∧ (i a).val < win2_6.index t a * S4000x64.size a + S4000x64.size a := by
  show i ∈ ((View.whole main_v37_2).slice (win2_6.rect t)).set ↔ _
  rw [View.set_slice_whole, Rect.mem_set_unit]
  exact Iff.rfl

/-- Every index of the accumulator is in the block of the point numbered by its row divided by 4000. -/
theorem covered2_6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := onto2 ⟨(i 0).val / 4000, by omega⟩
  have ht' : t.val = (i 0).val / 4000 := ht
  obtain ⟨e0r, e0c, e1r, e1c, e2r, e2c, e3r, e3c, e4r, e4c, e5r, e5c, e6r, e6c⟩ := idx2 t
  refine ⟨t, flush2_6 t, ?_⟩
  rw [mem_blk2_6]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 64 ≤ (i 1).val ∧ (i 1).val < win2_6.index t (1 : Fin 2) * 64 + 64; omega

/-- The accumulator after region 2 is the one it found plus coef times the factored step. -/
theorem final2_6 (c : Dev nD) : (dat2 V c).arrAt 6 cfg2.N = Cert.Spec.stepAcc (V c main_v26_0) (V c main_v14) (V c main_v36) (V c main_v26_2) :=
  (dat2 V c).arrAt_eq_of_cover 6 (Cert.Spec.stepAcc (V c main_v26_0) (V c main_v14) (V c main_v36) (V c main_v26_2)) (fun t _ => flushed2_6_eq V c t) covered2_6

end Region2

end Cert.KernelIdeal.RegionValue

end
-- ==== Proof.RegionValue3.lean ====
/-
  What region 3 of the idealized kernel program leaves in its result arrays, as whole-array functions of the
  arrays it reads: every grid point writes back one block of 4000 rows, the block is the pointwise function of
  the operands' blocks of the same rows, and the 25 blocks cover the array.
-/
import proofs.«100325_j31980326486703_2_alg».proof.Proof.Gen.KernelIdeal.Frame
import proofs.«100325_j31980326486703_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## Two facts about whole-block accesses -/

/-- The zero offset of a whole-block access: the pair of zeros is the constant function zero. -/
private theorem zeroOff : (![0, 0] : Fin 2 → Nat) = fun _ => 0 := funext fun a => by fin_cases a <;> rfl

/-- A column of 4000 entries spread over 64 features reads, at row p and any feature, the column's entry of row p. -/
private theorem spreadCol {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 3: the third propagation step, accumulated and rectified -/

section Region3
variable (V : (c : Dev nD) → (b : Ref sig .tc) → Buf (Elt F) ((c : Thread nD τ).loc b))

/-- The block index maps of region 3 over its 25 points: every window's row block is the point's number, its
    column block 0. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- Every one of the 25 row blocks is some point's. -/
theorem onto3 : ∀ q0 : Fin 25, ∃ t : Fin cfg3.N, t.val = q0.val :=
  (by decide +kernel : ∀ q0 : Fin 25, ∃ t : Fin grid3.N, t.val = q0.val)

/-- The payload at an index: max (acc + coef * (d * s + (d * d) * h)) 0, with d the column's entry of the row. -/
theorem pay3_4_at (x0 : Vec F S4000x64 .f32) (x1 : Vec F S4000x1 .f32) (x2 : Vec F S4000x64 .f32) (x3 : Vec F S4000x64 .f32) (p : Fin 4000) (q : Fin 64) :
    k3_pay1 x0 x1 x2 x3 (ix2 p q) = (FloatOps.maximumf (FloatOps.addf (x3 (ix2 p q)) (FloatOps.mulf (FloatOps.ofBits .f32 0x3E99999A#32) (FloatOps.addf (FloatOps.mulf (x1 (ix2 p (0 : Fin 1))) (x2 (ix2 p q))) (FloatOps.mulf (FloatOps.mulf (x1 (ix2 p (0 : Fin 1))) (x1 (ix2 p (0 : Fin 1)))) (x0 (ix2 p q)))))) (FloatOps.ofBits .f32 0x00000000#32)) := by
  simp only [k3_pay1, mulf, addf, maximumf, broadcast, spreadCol, shapeCast_self]

/-- What point t writes back to the result is block t of the rectified accumulated step. -/
theorem flushed3_4_eq (c : Dev nD) (t : Fin cfg3.N) :
    (dat3 V c).flushed 4 t = ((cfg3.win 4).blk t).view.read (Elt F) (Cert.Spec.stepRelu (V c main_v37_0) (V c main_v14) (V c main_v47) (V c main_v37_2)) := by
  show (cfg3.win 4).cut (grid3.coords t) ((dat3 V c).after 4 t) = _
  rw [after3_4]
  unfold out3_4
  rw [View.canon_unit_zero zeroOff]
  simp only [View.ld_unit_zero (S := S4000x64) zeroOff, View.ld_unit_zero (S := S4000x1) zeroOff]
  obtain ⟨e0r, e0c, e1r, e1c, e2r, e2c, e3r, e3c, e4r, e4c⟩ := idx3 t
  funext j
  obtain ⟨p, q, rfl⟩ : ∃ (p : Fin 4000) (q : Fin 64), j = ix2 p q := ⟨j 0, j 1, eq_ix2 j⟩
  refine (pay3_4_at _ _ _ _ p q).trans ?_
  have h0 : iblk3 V c 0 t (ix2 p q) = V c main_v37_0 (((cfg3.win 4).blk t).view.emb (ix2 p q)) := by
    show V c main_v37_0 (((cfg3.win 0).blk t).view.emb (ix2 p q)) = _
    refine congrArg _ (funext fun a => Fin.ext ?_)
    match a with
    | ⟨0, _⟩ => show win3_0.index t (0 : Fin 2) * 4000 + 1 * p.val = win3_4.index t (0 : Fin 2) * 4000 + 1 * p.val; omega
    | ⟨1, _⟩ => show win3_0.index t (1 : Fin 2) * 64 + 1 * q.val = win3_4.index t (1 : Fin 2) * 64 + 1 * q.val; omega
  have h1 : iblk3 V c 1 t (ix2 p (0 : Fin 1)) = V c main_v14 (Cert.Spec.rowOf (((cfg3.win 4).blk t).view.emb (ix2 p q))) := by
    show V c main_v14 (((cfg3.win 1).blk t).view.emb (ix2 p (0 : Fin 1))) = _
    refine congrArg _ (funext fun a => Fin.ext ?_)
    match a with
    | ⟨0, _⟩ => show win3_1.index t (0 : Fin 2) * 4000 + 1 * p.val = win3_4.index t (0 : Fin 2) * 4000 + 1 * p.val; omega
    | ⟨1, _⟩ => show win3_1.index t (1 : Fin 2) * 1 + 1 * 0 = 0; omega
  have h2 : iblk3 V c 2 t (ix2 p q) = V c main_v47 (((cfg3.win 4).blk t).view.emb (ix2 p q)) := by
    show V c main_v47 (((cfg3.win 2).blk t).view.emb (ix2 p q)) = _
    refine congrArg _ (funext fun a => Fin.ext ?_)
    match a with
    | ⟨0, _⟩ => show win3_2.index t (0 : Fin 2) * 4000 + 1 * p.val = win3_4.index t (0 : Fin 2) * 4000 + 1 * p.val; omega
    | ⟨1, _⟩ => show win3_2.index t (1 : Fin 2) * 64 + 1 * q.val = win3_4.index t (1 : Fin 2) * 64 + 1 * q.val; omega
  have h3 : iblk3 V c 3 t (ix2 p q) = V c main_v37_2 (((cfg3.win 4).blk t).view.emb (ix2 p q)) := by
    show V c main_v37_2 (((cfg3.win 3).blk t).view.emb (ix2 p q)) = _
    refine congrArg _ (funext fun a => Fin.ext ?_)
    match a with
    | ⟨0, _⟩ => show win3_3.index t (0 : Fin 2) * 4000 + 1 * p.val = win3_4.index t (0 : Fin 2) * 4000 + 1 * p.val; omega
    | ⟨1, _⟩ => show win3_3.index t (1 : Fin 2) * 64 + 1 * q.val = win3_4.index t (1 : Fin 2) * 64 + 1 * q.val; omega
  rw [h0, h1, h2, h3]
  rfl

/-- An index of the array is in point t's block of the result iff each coordinate is in the block's range. -/
theorem mem_blk3_4 (t : Fin cfg3.N) (i : S100000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v48).slice (win3_4.rect t)).set ↔ _
  rw [View.set_slice_whole, Rect.mem_set_unit]
  exact Iff.rfl

/-- Every index of the result is in the block of the point numbered by its row divided by 4000. -/
theorem covered3_4 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := onto3 ⟨(i 0).val / 4000, by omega⟩
  have ht' : t.val = (i 0).val / 4000 := ht
  obtain ⟨e0r, e0c, e1r, e1c, e2r, e2c, e3r, e3c, e4r, e4c⟩ := idx3 t
  refine ⟨t, flush3_4 t, ?_⟩
  rw [mem_blk3_4]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 64 ≤ (i 1).val ∧ (i 1).val < win3_4.index t (1 : Fin 2) * 64 + 64; omega

/-- The result after region 3 is the accumulator plus coef times the factored step, rectified. -/
theorem final3_4 (c : Dev nD) : (dat3 V c).arrAt 4 cfg3.N = Cert.Spec.stepRelu (V c main_v37_0) (V c main_v14) (V c main_v47) (V c main_v37_2) :=
  (dat3 V c).arrAt_eq_of_cover 4 (Cert.Spec.stepRelu (V c main_v37_0) (V c main_v14) (V c main_v47) (V c main_v37_2)) (fun t _ => flushed3_4_eq V c t) covered3_4

end Region3

end Cert.KernelIdeal.RegionValue

end
-- ==== Proof.RegionValue4.lean ====
/-
  What region 4 of the idealized kernel program leaves in its result arrays, as whole-array functions of the
  arrays it reads: every grid point writes back one block of 4000 rows, the block is the pointwise function of
  the operands' blocks of the same rows, and the 25 blocks cover the array.
-/
import proofs.«100325_j31980326486703_2_alg».proof.Proof.Gen.KernelIdeal.Frame
import proofs.«100325_j31980326486703_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable {F : FTy → Type} [FloatOps F]

/-! ## Two facts about whole-block accesses -/

/-- The zero offset of a whole-block access: the pair of zeros is the constant function zero. -/
private theorem zeroOff : (![0, 0] : Fin 2 → Nat) = fun _ => 0 := funext fun a => by fin_cases a <;> rfl

/-- A column of 4000 entries spread over 64 features reads, at row p and any feature, the column's entry of row p. -/
private theorem spreadCol {α : Type} (v : S4000x1.Idx → α) (h : S4000x1.Broadcasts S4000x64) (p : Fin 4000) (q : Fin 64) :
    broadcastTo S4000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## Region 4: the mean over incoming edges plus the input, rectified -/

section Region4
variable (V : (c : Dev nD) → (b : Ref sig .tc) → Buf (Elt F) ((c : Thread nD τ).loc b))

/-- The block index maps of region 4 over its 25 points: every window's row block is the point's number, its
    column block 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Every one of the 25 row blocks is some point's. -/
theorem onto4 : ∀ q0 : Fin 25, ∃ t : Fin cfg4.N, t.val = q0.val :=
  (by decide +kernel : ∀ q0 : Fin 25, ∃ t : Fin grid4.N, t.val = q0.val)

/-- The payload at an index: max (agg / c + x) 0, with c the column's entry of the row. -/
theorem pay4_3_at (x0 : Vec F S4000x64 .f32) (x1 : Vec F S4000x1 .f32) (x2 : Vec F S4000x64 .f32) (p : Fin 4000) (q : Fin 64) :
    k4_pay1 x0 x1 x2 (ix2 p q) = (FloatOps.maximumf (FloatOps.addf (FloatOps.divf (x0 (ix2 p q)) (x1 (ix2 p (0 : Fin 1)))) (x2 (ix2 p q))) (FloatOps.ofBits .f32 0x00000000#32)) := by
  simp only [k4_pay1, divf, addf, maximumf, broadcast, spreadCol, shapeCast_self]

/-- What point t writes back to the result is block t of the rectified mean plus input. -/
theorem flushed4_3_eq (c : Dev nD) (t : Fin cfg4.N) :
    (dat4 V c).flushed 3 t = ((cfg4.win 3).blk t).view.read (Elt F) (Cert.Spec.meanOut (V c main_v58) (V c main_v61) (V c main_arg0)) := by
  show (cfg4.win 3).cut (grid4.coords t) ((dat4 V c).after 3 t) = _
  rw [after4_3]
  unfold out4_3
  rw [View.canon_unit_zero zeroOff]
  simp only [View.ld_unit_zero (S := S4000x64) zeroOff, View.ld_unit_zero (S := S4000x1) zeroOff]
  obtain ⟨e0r, e0c, e1r, e1c, e2r, e2c, e3r, e3c⟩ := idx4 t
  funext j
  obtain ⟨p, q, rfl⟩ : ∃ (p : Fin 4000) (q : Fin 64), j = ix2 p q := ⟨j 0, j 1, eq_ix2 j⟩
  refine (pay4_3_at _ _ _ p q).trans ?_
  have h0 : iblk4 V c 0 t (ix2 p q) = V c main_v58 (((cfg4.win 3).blk t).view.emb (ix2 p q)) := by
    show V c main_v58 (((cfg4.win 0).blk t).view.emb (ix2 p q)) = _
    refine congrArg _ (funext fun a => Fin.ext ?_)
    match a with
    | ⟨0, _⟩ => show win4_0.index t (0 : Fin 2) * 4000 + 1 * p.val = win4_3.index t (0 : Fin 2) * 4000 + 1 * p.val; omega
    | ⟨1, _⟩ => show win4_0.index t (1 : Fin 2) * 64 + 1 * q.val = win4_3.index t (1 : Fin 2) * 64 + 1 * q.val; omega
  have h1 : iblk4 V c 1 t (ix2 p (0 : Fin 1)) = V c main_v61 (Cert.Spec.rowOf (((cfg4.win 3).blk t).view.emb (ix2 p q))) := by
    show V c main_v61 (((cfg4.win 1).blk t).view.emb (ix2 p (0 : Fin 1))) = _
    refine congrArg _ (funext fun a => Fin.ext ?_)
    match a with
    | ⟨0, _⟩ => show win4_1.index t (0 : Fin 2) * 4000 + 1 * p.val = win4_3.index t (0 : Fin 2) * 4000 + 1 * p.val; omega
    | ⟨1, _⟩ => show win4_1.index t (1 : Fin 2) * 1 + 1 * 0 = 0; omega
  have h2 : iblk4 V c 2 t (ix2 p q) = V c main_arg0 (((cfg4.win 3).blk t).view.emb (ix2 p q)) := by
    show V c main_arg0 (((cfg4.win 2).blk t).view.emb (ix2 p q)) = _
    refine congrArg _ (funext fun a => Fin.ext ?_)
    match a with
    | ⟨0, _⟩ => show win4_2.index t (0 : Fin 2) * 4000 + 1 * p.val = win4_3.index t (0 : Fin 2) * 4000 + 1 * p.val; omega
    | ⟨1, _⟩ => show win4_2.index t (1 : Fin 2) * 64 + 1 * q.val = win4_3.index t (1 : Fin 2) * 64 + 1 * q.val; omega
  rw [h0, h1, h2]
  rfl

/-- An index of the array is in point t's block of the result iff each coordinate is in the block's range. -/
theorem mem_blk4_3 (t : Fin cfg4.N) (i : S100000x64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v62).slice (win4_3.rect t)).set ↔ _
  rw [View.set_slice_whole, Rect.mem_set_unit]
  exact Iff.rfl

/-- Every index of the result is in the block of the point numbered by its row divided by 4000. -/
theorem covered4_3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := onto4 ⟨(i 0).val / 4000, by omega⟩
  have ht' : t.val = (i 0).val / 4000 := ht
  obtain ⟨e0r, e0c, e1r, e1c, e2r, e2c, e3r, e3c⟩ := idx4 t
  refine ⟨t, flush4_3 t, ?_⟩
  rw [mem_blk4_3]
  intro a
  match a with
  | ⟨0, _⟩ => show win4_3.index t (0 : Fin 2) * 4000 ≤ (i 0).val ∧ (i 0).val < win4_3.index t (0 : Fin 2) * 4000 + 4000; omega
  | ⟨1, _⟩ => show win4_3.index t (1 : Fin 2) * 64 ≤ (i 1).val ∧ (i 1).val < win4_3.index t (1 : Fin 2) * 64 + 64; omega

/-- The result after region 4 is the aggregate divided by the column, plus the input, rectified. -/
theorem final4_3 (c : Dev nD) : (dat4 V c).arrAt 3 cfg4.N = Cert.Spec.meanOut (V c main_v58) (V c main_v61) (V c main_arg0) :=
  (dat4 V c).arrAt_eq_of_cover 3 (Cert.Spec.meanOut (V c main_v58) (V c main_v61) (V c main_arg0)) (fun t _ => flushed4_3_eq V c t) covered4_3

end Region4

end Cert.KernelIdeal.RegionValue

end
-- ==== Proof.RegionValue.lean ====
/-
  What each of the five regions of the idealized kernel program leaves in its result arrays, as whole-array
  functions of the arrays it reads (one module per region; this module gathers them).
-/
import proofs.«100325_j31980326486703_2_alg».proof.Proof.RegionValue0
import proofs.«100325_j31980326486703_2_alg».proof.Proof.RegionValue1
import proofs.«100325_j31980326486703_2_alg».proof.Proof.RegionValue2
import proofs.«100325_j31980326486703_2_alg».proof.Proof.RegionValue3
import proofs.«100325_j31980326486703_2_alg».proof.Proof.RegionValue4
-- ==== Proof.KernelChain.lean ====
/-
  The contents of the kernel program's buffers at each boundary of @main, named.

  @main alternates stretches of host operations with five dense passes. Walking the boundaries in order, each buffer
  that a later segment reads is identified with a whole-array function of the two inputs x and edge_index: a stretch
  writes the results of its own operations and leaves every other buffer alone; a dense pass replaces its output arrays
  by the row-by-row functions of its input arrays and leaves every other buffer (its inputs included) alone. At the
  last boundary the result buffer holds the composed function kernelOut x edge_index.
-/
import proofs.«100325_j31980326486703_2_alg».proof.Proof.Gen.KernelIdeal.Frame
import proofs.«100325_j31980326486703_2_alg».proof.Proof.KernelHost
import proofs.«100325_j31980326486703_2_alg».proof.Proof.RegionValue
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Host Cert.KernelIdeal.RegionValue
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-- A stretch of host operations leaves a buffer none of them writes as it was. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The two inputs as launched. -/
abbrev xA : Mx := m ((c : Thread nD τ).loc main_arg0)
abbrev eA : EI := m ((c : Thread nD τ).loc main_arg1)

/-! ## Up to the first dense pass -/

theorem W1_v1 : W1 m ρ c (Proc.devRef .tc main_v1) = srcA (eA m c) := by
  show StableHlo.after hostOps0 (W0 m ρ c) (Proc.devRef .tc main_v1) = _
  after_results; rfl
theorem W1_v3 : W1 m ρ c (Proc.devRef .tc main_v3) = dstA (eA m c) := by
  show StableHlo.after hostOps0 (W0 m ρ c) (Proc.devRef .tc main_v3) = _
  after_results; rfl
theorem W1_v7 : W1 m ρ c (Proc.devRef .tc main_v7) = cntA (eA m c) := by
  show StableHlo.after hostOps0 (W0 m ρ c) (Proc.devRef .tc main_v7) = _
  after_results; rfl
theorem W1_v11 : W1 m ρ c (Proc.devRef .tc main_v11)
    = cmpf (F := Ideal) .ogt (degA (eA m c)) (broadcastInDim S100000 ![] bcast_S_S100000 (constant (F := Ideal) S_ .f32 0x00000000#32)) := by
  show StableHlo.after hostOps0 (W0 m ρ c) (Proc.devRef .tc main_v11) = _
  after_results; rfl
theorem W1_v12 : W1 m ρ c (Proc.devRef .tc main_v12) = Host.rsqrt (F := Ideal) (degA (eA m c)) := by
  show StableHlo.after hostOps0 (W0 m ρ c) (Proc.devRef .tc main_v12) = _
  after_results; rfl
theorem W1_cst3 : W1 m ρ c (Proc.devRef .tc main_cst_3) = constant (F := Ideal) S_ .f32 0x00000000#32 := by
  show StableHlo.after hostOps0 (W0 m ρ c) (Proc.devRef .tc main_cst_3) = _
  after_results
theorem W1_arg0 : W1 m ρ c (Proc.devRef .tc main_arg0) = xA m c := by
  show StableHlo.after hostOps0 (W0 m ρ c) (Proc.devRef .tc main_arg0) = W0 m ρ c (Proc.devRef .tc main_arg0)
  host_keeps hostOps0

set_option maxHeartbeats 1000000 in
/-- The guarded inverse square roots: the outlined selection, its typed transports being identities. -/
theorem W2_v13 : W2 m ρ c (Proc.devRef .tc main_v13) = dinvA (eA m c) := by
  show StableHlo.after hostOps0_1 (W1 m ρ c) (Proc.devRef .tc main_v13) = _
  have e11 := W1_v11 m ρ c; have e12 := W1_v12 m ρ c; have e3 := W1_cst3 m ρ c
  generalize W1 m ρ c = Wx at e11 e12 e3 ⊢
  after_results_simp
  simp only [TRef.toBuf, TRef.ofBuf, cast_eq, id]
  rw [e11, e12, e3]
  rfl

theorem W2_v1 : W2 m ρ c (Proc.devRef .tc main_v1) = srcA (eA m c) :=
  (show StableHlo.after hostOps0_1 (W1 m ρ c) (Proc.devRef .tc main_v1) = W1 m ρ c (Proc.devRef .tc main_v1) from by host_keeps hostOps0_1).trans (W1_v1 m ρ c)
theorem W2_v3 : W2 m ρ c (Proc.devRef .tc main_v3) = dstA (eA m c) :=
  (show StableHlo.after hostOps0_1 (W1 m ρ c) (Proc.devRef .tc main_v3) = W1 m ρ c (Proc.devRef .tc main_v3) from by host_keeps hostOps0_1).trans (W1_v3 m ρ c)
theorem W2_v7 : W2 m ρ c (Proc.devRef .tc main_v7) = cntA (eA m c) :=
  (show StableHlo.after hostOps0_1 (W1 m ρ c) (Proc.devRef .tc main_v7) = W1 m ρ c (Proc.devRef .tc main_v7) from by host_keeps hostOps0_1).trans (W1_v7 m ρ c)
theorem W2_arg0 : W2 m ρ c (Proc.devRef .tc main_arg0) = xA m c :=
  (show StableHlo.after hostOps0_1 (W1 m ρ c) (Proc.devRef .tc main_arg0) = W1 m ρ c (Proc.devRef .tc main_arg0) from by host_keeps hostOps0_1).trans (W1_arg0 m ρ c)

/-- The column of inverse square roots. -/
abbrev dK : FVec Ideal S100000x1 .f32 := dcolA (eA m c)
theorem W3_v1 : W3 m ρ c (Proc.devRef .tc main_v1) = srcA (eA m c) :=
  (show StableHlo.after hostOps0_2 (W2 m ρ c) (Proc.devRef .tc main_v1) = W2 m ρ c (Proc.devRef .tc main_v1) from by host_keeps hostOps0_2).trans (W2_v1 m ρ c)
theorem W3_v3 : W3 m ρ c (Proc.devRef .tc main_v3) = dstA (eA m c) :=
  (show StableHlo.after hostOps0_2 (W2 m ρ c) (Proc.devRef .tc main_v3) = W2 m ρ c (Proc.devRef .tc main_v3) from by host_keeps hostOps0_2).trans (W2_v3 m ρ c)
theorem W3_v7 : W3 m ρ c (Proc.devRef .tc main_v7) = cntA (eA m c) :=
  (show StableHlo.after hostOps0_2 (W2 m ρ c) (Proc.devRef .tc main_v7) = W2 m ρ c (Proc.devRef .tc main_v7) from by host_keeps hostOps0_2).trans (W2_v7 m ρ c)
theorem W3_arg0 : W3 m ρ c (Proc.devRef .tc main_arg0) = xA m c :=
  (show StableHlo.after hostOps0_2 (W2 m ρ c) (Proc.devRef .tc main_arg0) = W2 m ρ c (Proc.devRef .tc main_arg0) from by host_keeps hostOps0_2).trans (W2_arg0 m ρ c)
set_option maxHeartbeats 1000000 in
theorem W3_v14 : W3 m ρ c (Proc.devRef .tc main_v14) = dK m c := by
  show StableHlo.after hostOps0_2 (W2 m ρ c) (Proc.devRef .tc main_v14) = _
  have e0 := W2_v13 m ρ c
  generalize W2 m ρ c = Wx at e0 ⊢
  after_results
  rw [e0]
  rfl

/-! ## The first dense pass and the first edge sums -/

abbrev acc0K : Mx := Cert.Spec.scaleAlpha (F := Ideal) (xA m c)
abbrev g0K : Mx := Cert.Spec.scaleRows (F := Ideal) (xA m c) (dK m c)
theorem W4_arg0 : W4 m ρ c (Proc.devRef .tc main_arg0) = xA m c :=
  ((W4_arr m ρ c 0).trans (((dat0 (V3 m ρ) c).arrAt_in 0 rfl _).trans (A_eq0 (V3 m ρ) c 0))).trans (W3_arg0 m ρ c)
theorem W4_v14 : W4 m ρ c (Proc.devRef .tc main_v14) = dK m c :=
  ((W4_arr m ρ c 1).trans (((dat0 (V3 m ρ) c).arrAt_in 1 rfl _).trans (A_eq0 (V3 m ρ) c 1))).trans (W3_v14 m ρ c)
theorem W4_v1 : W4 m ρ c (Proc.devRef .tc main_v1) = srcA (eA m c) :=
  (W4_of_ne m ρ c main_v1 (by decide)).trans (W3_v1 m ρ c)
theorem W4_v3 : W4 m ρ c (Proc.devRef .tc main_v3) = dstA (eA m c) :=
  (W4_of_ne m ρ c main_v3 (by decide)).trans (W3_v3 m ρ c)
theorem W4_v7 : W4 m ρ c (Proc.devRef .tc main_v7) = cntA (eA m c) :=
  (W4_of_ne m ρ c main_v7 (by decide)).trans (W3_v7 m ρ c)
theorem W4_v15_0 : W4 m ρ c (Proc.devRef .tc main_v15_0) = acc0K m c :=
  (W4_arr m ρ c 2).trans ((final0_2 (V3 m ρ) c).trans (by
    rw [show V3 m ρ c main_arg0 = _ from W3_arg0 m ρ c]))
theorem W4_v15_1 : W4 m ρ c (Proc.devRef .tc main_v15_1) = g0K m c :=
  (W4_arr m ρ c 3).trans ((final0_3 (V3 m ρ) c).trans (by
    rw [show V3 m ρ c main_arg0 = _ from W3_arg0 m ρ c, show V3 m ρ c main_v14 = _ from W3_v14 m ρ c]))

abbrev s1K : Mx := segSum (eA m c) (g0K m c)
theorem W5_arg0 : W5 m ρ c (Proc.devRef .tc main_arg0) = xA m c :=
  (show StableHlo.after hostOps1 (W4 m ρ c) (Proc.devRef .tc main_arg0) = W4 m ρ c (Proc.devRef .tc main_arg0) from by host_keeps hostOps1).trans (W4_arg0 m ρ c)
theorem W5_v14 : W5 m ρ c (Proc.devRef .tc main_v14) = dK m c :=
  (show StableHlo.after hostOps1 (W4 m ρ c) (Proc.devRef .tc main_v14) = W4 m ρ c (Proc.devRef .tc main_v14) from by host_keeps hostOps1).trans (W4_v14 m ρ c)
theorem W5_v15_0 : W5 m ρ c (Proc.devRef .tc main_v15_0) = acc0K m c :=
  (show StableHlo.after hostOps1 (W4 m ρ c) (Proc.devRef .tc main_v15_0) = W4 m ρ c (Proc.devRef .tc main_v15_0) from by host_keeps hostOps1).trans (W4_v15_0 m ρ c)
theorem W5_v1 : W5 m ρ c (Proc.devRef .tc main_v1) = srcA (eA m c) :=
  (show StableHlo.after hostOps1 (W4 m ρ c) (Proc.devRef .tc main_v1) = W4 m ρ c (Proc.devRef .tc main_v1) from by host_keeps hostOps1).trans (W4_v1 m ρ c)
theorem W5_v3 : W5 m ρ c (Proc.devRef .tc main_v3) = dstA (eA m c) :=
  (show StableHlo.after hostOps1 (W4 m ρ c) (Proc.devRef .tc main_v3) = W4 m ρ c (Proc.devRef .tc main_v3) from by host_keeps hostOps1).trans (W4_v3 m ρ c)
theorem W5_v7 : W5 m ρ c (Proc.devRef .tc main_v7) = cntA (eA m c) :=
  (show StableHlo.after hostOps1 (W4 m ρ c) (Proc.devRef .tc main_v7) = W4 m ρ c (Proc.devRef .tc main_v7) from by host_keeps hostOps1).trans (W4_v7 m ρ c)
set_option maxHeartbeats 1000000 in
theorem W5_v25 : W5 m ρ c (Proc.devRef .tc main_v25) = s1K m c := by
  show StableHlo.after hostOps1 (W4 m ρ c) (Proc.devRef .tc main_v25) = _
  have e0 := W4_v3 m ρ c; have e1 := W4_v15_1 m ρ c; have e2 := W4_v1 m ρ c
  generalize W4 m ρ c = Wx at e0 e1 e2 ⊢
  after_results
  rw [e0, e1, e2]
  rfl

/-! ## The second dense pass and the second edge sums -/

abbrev h1K : Mx := Cert.Spec.stepH (F := Ideal) (xA m c) (dK m c) (s1K m c)
abbrev g1K : Mx := Cert.Spec.stepG (F := Ideal) (xA m c) (dK m c) (s1K m c)
abbrev acc1K : Mx := Cert.Spec.stepAcc (F := Ideal) (xA m c) (dK m c) (s1K m c) (acc0K m c)
theorem W6_arg0 : W6 m ρ c (Proc.devRef .tc main_arg0) = xA m c :=
  ((W6_arr m ρ c 0).trans (((dat1 (V5 m ρ) c).arrAt_in 0 rfl _).trans (A_eq1 (V5 m ρ) c 0))).trans (W5_arg0 m ρ c)
theorem W6_v14 : W6 m ρ c (Proc.devRef .tc main_v14) = dK m c :=
  ((W6_arr m ρ c 1).trans (((dat1 (V5 m ρ) c).arrAt_in 1 rfl _).trans (A_eq1 (V5 m ρ) c 1))).trans (W5_v14 m ρ c)
theorem W6_v1 : W6 m ρ c (Proc.devRef .tc main_v1) = srcA (eA m c) :=
  (W6_of_ne m ρ c main_v1 (by decide)).trans (W5_v1 m ρ c)
theorem W6_v3 : W6 m ρ c (Proc.devRef .tc main_v3) = dstA (eA m c) :=
  (W6_of_ne m ρ c main_v3 (by decide)).trans (W5_v3 m ρ c)
theorem W6_v7 : W6 m ρ c (Proc.devRef .tc main_v7) = cntA (eA m c) :=
  (W6_of_ne m ρ c main_v7 (by decide)).trans (W5_v7 m ρ c)
theorem W6_v26_0 : W6 m ρ c (Proc.devRef .tc main_v26_0) = h1K m c :=
  (W6_arr m ρ c 4).trans ((final1_4 (V5 m ρ) c).trans (by
    rw [show V5 m ρ c main_arg0 = _ from W5_arg0 m ρ c, show V5 m ρ c main_v14 = _ from W5_v14 m ρ c, show V5 m ρ c main_v25 = _ from W5_v25 m ρ c]))
theorem W6_v26_1 : W6 m ρ c (Proc.devRef .tc main_v26_1) = g1K m c :=
  (W6_arr m ρ c 5).trans ((final1_5 (V5 m ρ) c).trans (by
    rw [show V5 m ρ c main_arg0 = _ from W5_arg0 m ρ c, show V5 m ρ c main_v14 = _ from W5_v14 m ρ c, show V5 m ρ c main_v25 = _ from W5_v25 m ρ c]))
theorem W6_v26_2 : W6 m ρ c (Proc.devRef .tc main_v26_2) = acc1K m c :=
  (W6_arr m ρ c 6).trans ((final1_6 (V5 m ρ) c).trans (by
    rw [show V5 m ρ c main_arg0 = _ from W5_arg0 m ρ c, show V5 m ρ c main_v14 = _ from W5_v14 m ρ c, show V5 m ρ c main_v25 = _ from W5_v25 m ρ c, show V5 m ρ c main_v15_0 = _ from W5_v15_0 m ρ c]))

abbrev s2K : Mx := segSum (eA m c) (g1K m c)
theorem W7_arg0 : W7 m ρ c (Proc.devRef .tc main_arg0) = xA m c :=
  (show StableHlo.after hostOps2 (W6 m ρ c) (Proc.devRef .tc main_arg0) = W6 m ρ c (Proc.devRef .tc main_arg0) from by host_keeps hostOps2).trans (W6_arg0 m ρ c)
theorem W7_v14 : W7 m ρ c (Proc.devRef .tc main_v14) = dK m c :=
  (show StableHlo.after hostOps2 (W6 m ρ c) (Proc.devRef .tc main_v14) = W6 m ρ c (Proc.devRef .tc main_v14) from by host_keeps hostOps2).trans (W6_v14 m ρ c)
theorem W7_v26_0 : W7 m ρ c (Proc.devRef .tc main_v26_0) = h1K m c :=
  (show StableHlo.after hostOps2 (W6 m ρ c) (Proc.devRef .tc main_v26_0) = W6 m ρ c (Proc.devRef .tc main_v26_0) from by host_keeps hostOps2).trans (W6_v26_0 m ρ c)
theorem W7_v26_2 : W7 m ρ c (Proc.devRef .tc main_v26_2) = acc1K m c :=
  (show StableHlo.after hostOps2 (W6 m ρ c) (Proc.devRef .tc main_v26_2) = W6 m ρ c (Proc.devRef .tc main_v26_2) from by host_keeps hostOps2).trans (W6_v26_2 m ρ c)
theorem W7_v1 : W7 m ρ c (Proc.devRef .tc main_v1) = srcA (eA m c) :=
  (show StableHlo.after hostOps2 (W6 m ρ c) (Proc.devRef .tc main_v1) = W6 m ρ c (Proc.devRef .tc main_v1) from by host_keeps hostOps2).trans (W6_v1 m ρ c)
theorem W7_v3 : W7 m ρ c (Proc.devRef .tc main_v3) = dstA (eA m c) :=
  (show StableHlo.after hostOps2 (W6 m ρ c) (Proc.devRef .tc main_v3) = W6 m ρ c (Proc.devRef .tc main_v3) from by host_keeps hostOps2).trans (W6_v3 m ρ c)
theorem W7_v7 : W7 m ρ c (Proc.devRef .tc main_v7) = cntA (eA m c) :=
  (show StableHlo.after hostOps2 (W6 m ρ c) (Proc.devRef .tc main_v7) = W6 m ρ c (Proc.devRef .tc main_v7) from by host_keeps hostOps2).trans (W6_v7 m ρ c)
set_option maxHeartbeats 1000000 in
theorem W7_v36 : W7 m ρ c (Proc.devRef .tc main_v36) = s2K m c := by
  show StableHlo.after hostOps2 (W6 m ρ c) (Proc.devRef .tc main_v36) = _
  have e0 := W6_v3 m ρ c; have e1 := W6_v26_1 m ρ c; have e2 := W6_v1 m ρ c
  generalize W6 m ρ c = Wx at e0 e1 e2 ⊢
  after_results
  rw [e0, e1, e2]
  rfl

/-! ## The third dense pass and the third edge sums -/

abbrev h2K : Mx := Cert.Spec.stepH (F := Ideal) (h1K m c) (dK m c) (s2K m c)
abbrev g2K : Mx := Cert.Spec.stepG (F := Ideal) (h1K m c) (dK m c) (s2K m c)
abbrev acc2K : Mx := Cert.Spec.stepAcc (F := Ideal) (h1K m c) (dK m c) (s2K m c) (acc1K m c)
theorem W8_arg0 : W8 m ρ c (Proc.devRef .tc main_arg0) = xA m c :=
  (W8_of_ne m ρ c main_arg0 (by decide)).trans (W7_arg0 m ρ c)
theorem W8_v14 : W8 m ρ c (Proc.devRef .tc main_v14) = dK m c :=
  ((W8_arr m ρ c 1).trans (((dat2 (V7 m ρ) c).arrAt_in 1 rfl _).trans (A_eq2 (V7 m ρ) c 1))).trans (W7_v14 m ρ c)
theorem W8_v1 : W8 m ρ c (Proc.devRef .tc main_v1) = srcA (eA m c) :=
  (W8_of_ne m ρ c main_v1 (by decide)).trans (W7_v1 m ρ c)
theorem W8_v3 : W8 m ρ c (Proc.devRef .tc main_v3) = dstA (eA m c) :=
  (W8_of_ne m ρ c main_v3 (by decide)).trans (W7_v3 m ρ c)
theorem W8_v7 : W8 m ρ c (Proc.devRef .tc main_v7) = cntA (eA m c) :=
  (W8_of_ne m ρ c main_v7 (by decide)).trans (W7_v7 m ρ c)
theorem W8_v37_0 : W8 m ρ c (Proc.devRef .tc main_v37_0) = h2K m c :=
  (W8_arr m ρ c 4).trans ((final2_4 (V7 m ρ) c).trans (by
    rw [show V7 m ρ c main_v26_0 = _ from W7_v26_0 m ρ c, show V7 m ρ c main_v14 = _ from W7_v14 m ρ c, show V7 m ρ c main_v36 = _ from W7_v36 m ρ c]))
theorem W8_v37_1 : W8 m ρ c (Proc.devRef .tc main_v37_1) = g2K m c :=
  (W8_arr m ρ c 5).trans ((final2_5 (V7 m ρ) c).trans (by
    rw [show V7 m ρ c main_v26_0 = _ from W7_v26_0 m ρ c, show V7 m ρ c main_v14 = _ from W7_v14 m ρ c, show V7 m ρ c main_v36 = _ from W7_v36 m ρ c]))
theorem W8_v37_2 : W8 m ρ c (Proc.devRef .tc main_v37_2) = acc2K m c :=
  (W8_arr m ρ c 6).trans ((final2_6 (V7 m ρ) c).trans (by
    rw [show V7 m ρ c main_v26_0 = _ from W7_v26_0 m ρ c, show V7 m ρ c main_v14 = _ from W7_v14 m ρ c, show V7 m ρ c main_v36 = _ from W7_v36 m ρ c, show V7 m ρ c main_v26_2 = _ from W7_v26_2 m ρ c]))

abbrev s3K : Mx := segSum (eA m c) (g2K m c)
theorem W9_arg0 : W9 m ρ c (Proc.devRef .tc main_arg0) = xA m c :=
  (show StableHlo.after hostOps3 (W8 m ρ c) (Proc.devRef .tc main_arg0) = W8 m ρ c (Proc.devRef .tc main_arg0) from by host_keeps hostOps3).trans (W8_arg0 m ρ c)
theorem W9_v14 : W9 m ρ c (Proc.devRef .tc main_v14) = dK m c :=
  (show StableHlo.after hostOps3 (W8 m ρ c) (Proc.devRef .tc main_v14) = W8 m ρ c (Proc.devRef .tc main_v14) from by host_keeps hostOps3).trans (W8_v14 m ρ c)
theorem W9_v37_0 : W9 m ρ c (Proc.devRef .tc main_v37_0) = h2K m c :=
  (show StableHlo.after hostOps3 (W8 m ρ c) (Proc.devRef .tc main_v37_0) = W8 m ρ c (Proc.devRef .tc main_v37_0) from by host_keeps hostOps3).trans (W8_v37_0 m ρ c)
theorem W9_v37_2 : W9 m ρ c (Proc.devRef .tc main_v37_2) = acc2K m c :=
  (show StableHlo.after hostOps3 (W8 m ρ c) (Proc.devRef .tc main_v37_2) = W8 m ρ c (Proc.devRef .tc main_v37_2) from by host_keeps hostOps3).trans (W8_v37_2 m ρ c)
theorem W9_v1 : W9 m ρ c (Proc.devRef .tc main_v1) = srcA (eA m c) :=
  (show StableHlo.after hostOps3 (W8 m ρ c) (Proc.devRef .tc main_v1) = W8 m ρ c (Proc.devRef .tc main_v1) from by host_keeps hostOps3).trans (W8_v1 m ρ c)
theorem W9_v3 : W9 m ρ c (Proc.devRef .tc main_v3) = dstA (eA m c) :=
  (show StableHlo.after hostOps3 (W8 m ρ c) (Proc.devRef .tc main_v3) = W8 m ρ c (Proc.devRef .tc main_v3) from by host_keeps hostOps3).trans (W8_v3 m ρ c)
theorem W9_v7 : W9 m ρ c (Proc.devRef .tc main_v7) = cntA (eA m c) :=
  (show StableHlo.after hostOps3 (W8 m ρ c) (Proc.devRef .tc main_v7) = W8 m ρ c (Proc.devRef .tc main_v7) from by host_keeps hostOps3).trans (W8_v7 m ρ c)
set_option maxHeartbeats 1000000 in
theorem W9_v47 : W9 m ρ c (Proc.devRef .tc main_v47) = s3K m c := by
  show StableHlo.after hostOps3 (W8 m ρ c) (Proc.devRef .tc main_v47) = _
  have e0 := W8_v3 m ρ c; have e1 := W8_v37_1 m ρ c; have e2 := W8_v1 m ρ c
  generalize W8 m ρ c = Wx at e0 e1 e2 ⊢
  after_results
  rw [e0, e1, e2]
  rfl

/-! ## The last step, the mean, and the result -/

abbrev hrK : Mx := Cert.Spec.stepRelu (F := Ideal) (h2K m c) (dK m c) (s3K m c) (acc2K m c)
theorem W10_arg0 : W10 m ρ c (Proc.devRef .tc main_arg0) = xA m c :=
  (W10_of_ne m ρ c main_arg0 (by decide)).trans (W9_arg0 m ρ c)
theorem W10_v1 : W10 m ρ c (Proc.devRef .tc main_v1) = srcA (eA m c) :=
  (W10_of_ne m ρ c main_v1 (by decide)).trans (W9_v1 m ρ c)
theorem W10_v3 : W10 m ρ c (Proc.devRef .tc main_v3) = dstA (eA m c) :=
  (W10_of_ne m ρ c main_v3 (by decide)).trans (W9_v3 m ρ c)
theorem W10_v7 : W10 m ρ c (Proc.devRef .tc main_v7) = cntA (eA m c) :=
  (W10_of_ne m ρ c main_v7 (by decide)).trans (W9_v7 m ρ c)
theorem W10_v48 : W10 m ρ c (Proc.devRef .tc main_v48) = hrK m c :=
  (W10_arr m ρ c 4).trans ((final3_4 (V9 m ρ) c).trans (by
    rw [show V9 m ρ c main_v37_0 = _ from W9_v37_0 m ρ c, show V9 m ρ c main_v14 = _ from W9_v14 m ρ c, show V9 m ρ c main_v47 = _ from W9_v47 m ρ c, show V9 m ρ c main_v37_2 = _ from W9_v37_2 m ρ c]))

abbrev aggK : Mx := segSum (eA m c) (hrK m c)
theorem W11_arg0 : W11 m ρ c (Proc.devRef .tc main_arg0) = xA m c :=
  (show StableHlo.after hostOps4 (W10 m ρ c) (Proc.devRef .tc main_arg0) = W10 m ρ c (Proc.devRef .tc main_arg0) from by host_keeps hostOps4).trans (W10_arg0 m ρ c)
set_option maxHeartbeats 1000000 in
theorem W11_v58 : W11 m ρ c (Proc.devRef .tc main_v58) = aggK m c := by
  show StableHlo.after hostOps4 (W10 m ρ c) (Proc.devRef .tc main_v58) = _
  have e0 := W10_v3 m ρ c; have e1 := W10_v48 m ρ c; have e2 := W10_v1 m ρ c
  generalize W10 m ρ c = Wx at e0 e1 e2 ⊢
  after_results
  rw [e0, e1, e2]
  rfl
set_option maxHeartbeats 1000000 in
theorem W11_v61 : W11 m ρ c (Proc.devRef .tc main_v61) = cmaxA (eA m c) := by
  show StableHlo.after hostOps4 (W10 m ρ c) (Proc.devRef .tc main_v61) = _
  have e0 := W10_v7 m ρ c
  generalize W10 m ρ c = Wx at e0 ⊢
  after_results
  rw [e0]
  rfl

/-- The result buffer at the last boundary is the composed function of the two inputs. -/
theorem W12_v62 : W12 m ρ c (Proc.devRef .tc main_v62) = kernelOut (xA m c) (eA m c) :=
  (W12_arr m ρ c 3).trans ((final4_3 (V11 m ρ) c).trans (by
    rw [show V11 m ρ c main_v58 = _ from W11_v58 m ρ c, show V11 m ρ c main_v61 = _ from W11_v61 m ρ c, show V11 m ρ c main_arg0 = _ from W11_arg0 m ρ c]
    rfl))

end Cert.KernelIdeal.Chain

end
-- ==== Proof.KernelRead.lean ====
/-
  The float arrays the kernel program's host operations compute, read at an index.

  The edge count at n is zero plus a one per edge into n; the inverse-square-root column at row n is the guarded
  inverse square root of the count plus one; the divisor column at row n is the larger of the count and one; and rows
  picked at the sources and added at the targets give, at (n, j), zero plus the sum over the edges into n of the
  picked row's entry j. Sums over the 1600000 edges are only ever compared summand by summand.
-/
import proofs.«100325_j31980326486703_2_alg».proof.Proof.KernelHost

set_option maxRecDepth 16384

noncomputable section

open scoped BigOperators

namespace Cert.KernelIdeal.Host

open Cert.KernelIdeal Cert.KernelIdeal.Gen Idealize.ShloMosaic Idealize.ShloMosaic.TcCoe Idealize.ShloMosaic.ValueIdx Cert.LibSegment

/-- The edges into n, read off the column of targets, are the edges into n of the specification. -/
theorem into_eq (ei : EI) (n : Fin 100000) :
    (Finset.univ.filter fun e : Fin 1600000 =>
      (broadcastInDim S1600000x1 ![0] bcast_S1600000_S1600000x1_0 (dstA ei) (colIdx e)).toInt = (n.val : Int))
      = Cert.Spec.into (Cert.Spec.dstInt ei) n := by
  unfold Cert.Spec.into
  refine Finset.filter_congr (fun e _ => ?_)
  rw [dcol_int]

/-- The edge count: zero plus a one per edge into n. -/
theorem cntA_apply (ei : EI) (n : Fin 100000) : cntA ei (ix1 n) = Cert.Spec.cnt (Cert.Spec.dstInt ei) n := by
  unfold cntA
  show Host.scatterAdd (F := Ideal) (entryAddDims 100000 1600000 _) _ _ _ (ix1 n) = _
  rw [hostScatterAdd_entries_apply, splat_apply, into_eq]
  unfold Cert.Spec.cnt
  refine congrArg₂ (· + ·) rfl (Finset.sum_congr rfl (fun e _ => ?_))
  exact splat_apply _ _ _

/-! ## Entrywise operations at an entry (each by unfolding one definition, over arbitrary arrays) -/

theorem select_at {α : Type} {s : Shape} (c : IVec s 1) (a b : s.Idx → α) (i : s.Idx) :
    select c a b i = Scalar.select (c i) (a i) (b i) := rfl
theorem cmpf_at {s : Shape} (p : CmpFPredicate) (x y : FVec Ideal s .f32) (i : s.Idx) :
    cmpf (F := Ideal) p x y i = Ideal.cmp p (x i) (y i) := rfl
theorem addf_at {s : Shape} (x y : FVec Ideal s .f32) (i : s.Idx) : addf x y i = x i + y i := rfl
theorem rsqrt_at {s : Shape} (x : FVec Ideal s .f32) (i : s.Idx) : Host.rsqrt (F := Ideal) x i = Ideal.rsqrt (x i) := rfl
theorem maximumf_at {s : Shape} (x y : FVec Ideal s .f32) (i : s.Idx) : maximumf x y i = max (x i) (y i) := rfl
theorem const_at (w : BitVec 32) (i : S_.Idx) : constant (F := Ideal) S_ .f32 w i = Ideal.ofBits .f32 w := rfl

-- from here on the count is compared as a whole, never opened
attribute [local irreducible] Cert.Spec.cnt

/-- The guarded inverse square root of the degree. -/
theorem dinvA_apply (ei : EI) (n : Fin 100000) : dinvA ei (ix1 n) = Cert.Spec.dv (Cert.Spec.dstInt ei) n := by
  unfold dinvA degA
  rw [select_at, cmpf_at, rsqrt_at, addf_at, splat_apply, splat_apply, cntA_apply, const_at, const_at]
  rfl

/-- The column of inverse square roots, at row n. -/
theorem dcolA_apply (ei : EI) (n : Fin 100000) : dcolA ei (ix2 n (0 : Fin 1)) = Cert.Spec.dv (Cert.Spec.dstInt ei) n := by
  unfold dcolA
  rw [broadcastInDim_apply _ bcast_S100000_S100000x1_0 (dinvA ei) (ix2 n (0 : Fin 1)) (ix1 n) (fun a => match a with
    | ⟨0, _⟩ => by show n.val = if (100000 : Nat) = 1 then 0 else n.val; rw [if_neg (by decide)])]
  exact dinvA_apply ei n

/-- The column of divisors, at row n: the larger of the count and one. -/
theorem cmaxA_apply (ei : EI) (n : Fin 100000) :
    cmaxA ei (ix2 n (0 : Fin 1)) = max (Cert.Spec.cnt (Cert.Spec.dstInt ei) n) Cert.Spec.one := by
  unfold cmaxA
  rw [broadcastInDim_apply _ bcast_S100000_S100000x1_0 _ (ix2 n (0 : Fin 1)) (ix1 n) (fun a => match a with
    | ⟨0, _⟩ => by show n.val = if (100000 : Nat) = 1 then 0 else n.val; rw [if_neg (by decide)])]
  rw [maximumf_at, splat_apply, cntA_apply, const_at]

end Cert.KernelIdeal.Host

end
-- ==== Proof.KernelRead2.lean ====
/-
  Rows picked at the sources and added at the targets, read at an index: entry (n, j) is zero plus the sum, over the
  edges into n, of entry j of the row the edge picks. The sum over the edges is compared summand by summand.
-/
import proofs.«100325_j31980326486703_2_alg».proof.Proof.KernelRead

set_option maxRecDepth 16384

noncomputable section

open scoped BigOperators

namespace Cert.KernelIdeal.Host

open Cert.KernelIdeal Cert.KernelIdeal.Gen Idealize.ShloMosaic Idealize.ShloMosaic.TcCoe Idealize.ShloMosaic.ValueIdx Cert.LibSegment

/-- A picked entry: row (the clamped, wrapped source of edge e), column j. -/
theorem picked_apply (ei : EI) (g : Mx) (e : Fin 1600000) (j : Fin 64) :
    Host.gather gather_S100000x64_S1600000x1_S1600000x64_1_0_n_n_0_1_164 g (sidxA ei) (ix2 e j)
      = g (ix2 (Cert.Spec.srcRow ei e) j) := by
  show Host.gather (rowDims 100000 64 1600000 _) g (sidxA ei) (ix2 e j) = _
  rw [gather_rows_apply (by decide : 0 < 100000), sidxA_row]

/-- Picked rows added at the targets. -/
theorem segSum_apply (ei : EI) (g : Mx) (n : Fin 100000) (j : Fin 64) :
    segSum ei g (ix2 n j) = Cert.Spec.gatherSum (Cert.Spec.srcRow ei) (Cert.Spec.dstInt ei) (Cert.Spec.ofMat g) n j := by
  unfold segSum
  show Host.scatterAdd (F := Ideal) (rowAddDims 100000 64 1600000 _) _ _ _ (ix2 n j) = _
  rw [hostScatterAdd_rows_apply, splat_apply, into_eq]
  unfold Cert.Spec.gatherSum
  refine congrArg₂ (· + ·) rfl (Finset.sum_congr rfl (fun e _ => ?_))
  exact picked_apply ei g e j

end Cert.KernelIdeal.Host

end
-- ==== Proof.KernelOut.lean ====
/-
  The kernel program's composed result, index by index, is the factored arrangement of the layer.

  With d n the guarded inverse square root of the degree, the dense passes compute, row by row,
  g = d * h (pre-scaled rows), h' = d * s + (d * d) * h from the edge sums s of g, and the accumulator
  acc + coef * h'; the host operations between them compute the edge sums. Reading each at (n, j) gives the
  factored step three times, then the rectified accumulator, its mean over incoming edges, and the result.
-/
import proofs.«100325_j31980326486703_2_alg».proof.Proof.KernelRead2

set_option maxRecDepth 16384

noncomputable section

namespace Cert.KernelIdeal.Host

open Cert.KernelIdeal Idealize.ShloMosaic Idealize.ShloMosaic.TcCoe Idealize.ShloMosaic.ValueIdx Cert.Spec

variable (ei : EI)

/-- Rows scaled by the column of inverse square roots. -/
theorem scaleRows_of (h : Mx) :
    ofMat (scaleRows (F := Ideal) h (dcolA ei)) = fun m k => dv (dstInt ei) m * ofMat h m k := by
  funext m k
  show dcolA ei (ix2 m (0 : Fin 1)) * h (ix2 m k) = _
  rw [dcolA_apply]

/-- One factored step of the dense pass, from the edge sums of the pre-scaled rows. -/
theorem stepH_of (h g : Mx) (hg : ofMat g = fun m k => dv (dstInt ei) m * ofMat h m k) :
    ofMat (stepH (F := Ideal) h (dcolA ei) (segSum ei g)) = fstep (srcRow ei) (dstInt ei) (ofMat h) := by
  funext n j
  show dcolA ei (ix2 n (0 : Fin 1)) * segSum ei g (ix2 n j)
    + (dcolA ei (ix2 n (0 : Fin 1)) * dcolA ei (ix2 n (0 : Fin 1))) * h (ix2 n j) = _
  rw [dcolA_apply, segSum_apply, hg]
  rfl

/-- The next pre-scaled rows. -/
theorem stepG_of (h s : Mx) :
    ofMat (stepG (F := Ideal) h (dcolA ei) s) = fun m k => dv (dstInt ei) m * ofMat (stepH (F := Ideal) h (dcolA ei) s) m k := by
  funext m k
  show dcolA ei (ix2 m (0 : Fin 1)) * stepH (F := Ideal) h (dcolA ei) s (ix2 m k) = _
  rw [dcolA_apply]

/-- The next accumulator. -/
theorem stepAcc_of (h s acc : Mx) :
    ofMat (stepAcc (F := Ideal) h (dcolA ei) s acc)
      = fun m k => ofMat acc m k + coef * ofMat (stepH (F := Ideal) h (dcolA ei) s) m k := rfl

/-- The kernel program's result at (n, j) is the layer in its factored arrangement. -/
theorem kernelOut_apply (x : Mx) (n : Fin 100000) (j : Fin 64) :
    kernelOut x ei (ix2 n j) = outF (ofMat x) (srcRow ei) (dstInt ei) n j := by
  have e1 := stepH_of ei x _ (scaleRows_of ei x)
  have e2 := stepH_of ei _ _ (stepG_of ei x (segSum ei (scaleRows (F := Ideal) x (dcolA ei))))
  have e3 := stepH_of ei _ _ (stepG_of ei (stepH (F := Ideal) x (dcolA ei) (segSum ei (scaleRows (F := Ideal) x (dcolA ei))))
    (segSum ei (stepG (F := Ideal) x (dcolA ei) (segSum ei (scaleRows (F := Ideal) x (dcolA ei))))))
  rw [e1] at e2
  rw [e2] at e3
  unfold kernelOut outF finish
  show max (Ideal.div (segSum ei _ (ix2 n j)) (cmaxA ei (ix2 n (0 : Fin 1))) + x (ix2 n j)) zero = _
  rw [segSum_apply, cmaxA_apply]
  refine congrArg₂ max (congrArg₂ (· + ·) (congrArg₂ Ideal.div ?_ rfl) rfl) rfl
  refine congrArg (fun f => gatherSum (srcRow ei) (dstInt ei) f n j) ?_
  funext m k
  show max (((alpha * x (ix2 m k) + coef * ofMat (stepH (F := Ideal) x (dcolA ei) _) m k) + coef * ofMat (stepH (F := Ideal) _ (dcolA ei) _) m k)
      + coef * ofMat (stepH (F := Ideal) _ (dcolA ei) _) m k) zero = _
  rw [e1, e2, e3]

end Cert.KernelIdeal.Host

end
-- ==== Proof.RefFinish.lean ====
/-
  The reference program from its three propagated matrices to its result, index by index.

  Given the matrices h1, h2, h3 the reference holds after its three propagation steps, it forms
  acc = ((alpha * x + coef * h1) + coef * h2) + coef * h3, rectifies it, picks the rectified rows at the edges'
  sources and adds them at the edges' targets (entry (n, j): zero plus the sum over the edges into n), divides by the
  larger of the edge count and one, adds the input and rectifies. This is the specification's last part, stated for
  whatever h1, h2, h3 are.
-/
import proofs.«100325_j31980326486703_2_alg».proof.Proof.RefRead
import proofs.«100325_j31980326486703_2_alg».proof.Proof.SpecEdges
import Idealize.ShloMosaic.Lib.Pipeline.Value
import Idealize.ShloMosaic.Lib.ValueIdx

noncomputable section

open scoped BigOperators

namespace Cert.RefFinish

open Cert.ReferenceIdeal Cert.ReferenceIdeal.Gen Cert.ReferenceIdeal.ReadP Idealize.ShloMosaic
  Idealize.ShloMosaic.ValueIdx Cert.LibSegment Cert.Spec

/-- The integer input and a feature matrix of the program. -/
abbrev EdgeWords : Type := IVec S2x1600000 32
abbrev Feat : Type := FVec Ideal S100000x64 .f32

/-! ## The edges' words -/

/-- Entry e of the flat source list is the input's word (0, e). -/
theorem src_apply (x1 : EdgeWords) (e : Fin 1600000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Entry e of the flat target list is the input's word (1, e). -/
theorem dst_apply (x1 : EdgeWords) (e : Fin 1600000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-- Entry (k, 0) of a column made from a flat list is the list's entry k. -/
theorem col_flat {M : Nat} (f : (⟨2, ![M, 1]⟩ : Shape).Idx → (⟨1, ![M]⟩ : Shape).Idx)
    (hf : ∀ i, (f i 0).val = (i 0).val) (k : Fin M) : f (colIdx k) = ix1 k := by
  funext a
  obtain rfl : a = 0 := Subsingleton.elim _ _
  exact Fin.ext (hf _)

/-- The integer the count's column gives edge e is its target, signed. -/
theorem tgt84 (x1 : EdgeWords) (e : Fin 1600000) :
    (val_main_v84 (F := Ideal) x1 (colIdx e)).toInt = dstInt x1 e := by
  rw [val_main_v84_apply, col_flat idx_main_v84 (fun _ => rfl) e, dst_apply]; rfl

/-- The integer the sum's column gives edge e is its target, signed. -/
theorem tgt94 (x1 : EdgeWords) (e : Fin 1600000) :
    (val_main_v94 (F := Ideal) x1 (colIdx e)).toInt = dstInt x1 e := by
  rw [val_main_v94_apply, col_flat idx_main_v94 (fun _ => rfl) e, dst_apply]; rfl

theorem into84 (x1 : EdgeWords) (n : Fin 100000) :
    (Finset.univ.filter fun e : Fin 1600000 => (val_main_v84 (F := Ideal) x1 (colIdx e)).toInt = (n.val : Int))
      = into (dstInt x1) n := by
  unfold into
  exact Finset.filter_congr (fun e _ => by rw [tgt84])

theorem into94 (x1 : EdgeWords) (n : Fin 100000) :
    (Finset.univ.filter fun e : Fin 1600000 => (val_main_v94 (F := Ideal) x1 (colIdx e)).toInt = (n.val : Int))
      = into (dstInt x1) n := by
  unfold into
  exact Finset.filter_congr (fun e _ => by rw [tgt94])

/-- The row edge e picks: its source word, wrapped and clamped. -/
theorem srcRow91 (x1 : EdgeWords) (e : Fin 1600000) :
    clampRow 100000 (by decide) (val_main_v91 (F := Ideal) x1 (colIdx e)) = srcRow x1 e := by
  rw [val_main_v91_apply, col_flat idx_main_v91 (fun _ => rfl) e, val_main_v90_apply, val_main_v87_apply,
    val_main_v89_apply, val_main_v86_apply, val_main_v88_apply, src_apply]
  rfl

/-! ## The edge count and the divisor -/

/-- The edge count: zero plus a one per edge into n. -/
theorem cnt_apply (x1 : EdgeWords) (n : Fin 100000) : val_main_v85 (F := Ideal) x1 (ix1 n) = cnt (dstInt x1) n := by
  unfold val_main_v85
  show Host.scatterAdd (F := Ideal) (entryAddDims 100000 1600000 _) _ _ _ (ix1 n) = _
  rw [hostScatterAdd_entries_apply, into84]
  unfold cnt
  refine congrArg₂ (· + ·) ?_ (Finset.sum_congr rfl (fun e _ => ?_))
  · rw [val_main_v83_apply]; rfl
  · rw [val_main_v82_apply]; rfl

/-! ## The picked rows and their sums over incoming edges -/

/-- The rectified rows picked at the sources and added at the targets. -/
theorem agg_apply (x0 : Feat) (x1 : EdgeWords) (n : Fin 100000) (j : Fin 64) :
    val_main_v95 (F := Ideal) x0 x1 (ix2 n j)
      = gatherSum (srcRow x1) (dstInt x1) (ofMat (val_main_v81 (F := Ideal) x0 x1)) n j := by
  unfold val_main_v95
  show Host.scatterAdd (F := Ideal) (rowAddDims 100000 64 1600000 _) _ _ _ (ix2 n j) = _
  rw [hostScatterAdd_rows_apply, into94]
  unfold gatherSum
  refine congrArg₂ (· + ·) ?_ (Finset.sum_congr rfl (fun e _ => ?_))
  · rw [val_main_v93_apply]; rfl
  · unfold val_main_v92
    show Host.gather (rowDims 100000 64 1600000 _) _ _ (ix2 e j) = _
    rw [gather_rows_apply (by decide : 0 < 100000), srcRow91]

-- from here on counts and edge sums are compared whole, never opened
attribute [local irreducible] Cert.Spec.cnt Cert.Spec.gatherSum

/-- The divisor at (n, j): the larger of the edge count of n and one. -/
theorem cmax_apply (x1 : EdgeWords) (n : Fin 100000) (j : Fin 64) :
    val_main_v99 (F := Ideal) x1 (ix2 n j) = max (cnt (dstInt x1) n) one := by
  have hidx : idx_main_v98 (idx_main_v99 (ix2 n j)) = ix1 n := by
    funext a
    refine Fin.ext ?_
    match a with
    | ⟨0, _⟩ => rfl
  rw [val_main_v99_apply, val_main_v98_apply, hidx, val_main_v97_apply, cnt_apply, val_main_v96_apply]
  rfl

/-! ## The rectified accumulator -/

/-- The rectified accumulator at (m, k), from the three propagated matrices' entries. -/
theorem relu_apply (x0 : Feat) (x1 : EdgeWords) (m : Fin 100000) (k : Fin 64) :
    val_main_v81 (F := Ideal) x0 x1 (ix2 m k)
      = max (((alpha * x0 (ix2 m k) + coef * val_main_v45 (F := Ideal) x0 x1 (ix2 m k))
          + coef * val_main_v61 (F := Ideal) x0 x1 (ix2 m k)) + coef * val_main_v77 (F := Ideal) x0 x1 (ix2 m k)) zero := by
  rw [val_main_v81_apply, val_main_v80_apply, val_main_v79_apply, val_main_v64_apply, val_main_v63_apply,
    val_main_v48_apply, val_main_v47_apply, val_main_v32_apply, val_main_v78_apply, val_main_v62_apply,
    val_main_v46_apply, val_main_v31_apply, val_main_call1_v0_apply]
  generalize val_main_v45 (F := Ideal) x0 x1 (ix2 m k) = a
  generalize val_main_v61 (F := Ideal) x0 x1 (ix2 m k) = b
  generalize val_main_v77 (F := Ideal) x0 x1 (ix2 m k) = c
  rfl

/-! ## The result -/

/-- The reference's result at (n, j) is the specification's last part of its three propagated matrices. -/
theorem finish_apply (x0 : Feat) (x1 : EdgeWords) (n : Fin 100000) (j : Fin 64) :
    val_main_v102 (F := Ideal) x0 x1 (ix2 n j)
      = finish (ofMat x0) (srcRow x1) (dstInt x1) (ofMat (val_main_v45 (F := Ideal) x0 x1))
          (ofMat (val_main_v61 (F := Ideal) x0 x1)) (ofMat (val_main_v77 (F := Ideal) x0 x1)) n j := by
  have hrelu : ofMat (val_main_v81 (F := Ideal) x0 x1)
      = fun m k => max (((alpha * ofMat x0 m k + coef * ofMat (val_main_v45 (F := Ideal) x0 x1) m k)
          + coef * ofMat (val_main_v61 (F := Ideal) x0 x1) m k) + coef * ofMat (val_main_v77 (F := Ideal) x0 x1) m k) zero := by
    funext m k
    exact relu_apply x0 x1 m k
  rw [val_main_v102_apply, val_main_v101_apply, val_main_v100_apply, val_main_call2_v0_apply, agg_apply, cmax_apply,
    hrelu]
  unfold finish
  generalize gatherSum (srcRow x1) (dstInt x1) _ n j = g
  generalize cnt (dstInt x1) n = q
  rfl

end Cert.RefFinish

end
-- ==== Proof.RefValue.lean ====
/-
  Each of the reference program's three propagation steps, read index by index, is the edgewise step of the
  layer applied to the matrix before it.

  The reference joins the 1600000 edges with 100000 self loops into one list of 1700000 entries, entry k
  carrying a source word and a target word: for an edge its two words from the input, for the loop of node m
  the number m twice. Every sum over the joined list splits into the sum over the edges and the sum over the
  loops, and of the loops exactly the one of node n lands on node n.
-/
import proofs.«100325_j31980326486703_2_alg».proof.Proof.RefRead
import proofs.«100325_j31980326486703_2_alg».proof.Proof.SpecEdges
import Idealize.ShloMosaic.Lib.Pipeline.Value
import Idealize.ShloMosaic.Lib.ValueIdx

noncomputable section

open scoped BigOperators

namespace Cert.RefValue

open Cert.ReferenceIdeal Cert.ReferenceIdeal.Gen Cert.ReferenceIdeal.ReadP Idealize.ShloMosaic
  Idealize.ShloMosaic.ValueIdx Cert.LibSegment Cert.Spec

/-- The integer input: two rows of 1600000 words. -/
abbrev EdgeWords : Type := IVec S2x1600000 32
/-- A feature matrix of the program. -/
abbrev Feat : Type := FVec Ideal S100000x64 .f32

/-! ## The two rows of the input as flat lists -/

/-- Entry e of the flat source list is the input's word (0, e). -/
theorem src_apply (x1 : EdgeWords) (e : Fin 1600000) :
    val_main_v1 (F := Ideal) x1 (ix1 e) = x1 (ix2 (0 : Fin 2) e) := by
  rw [val_main_v1_apply, val_main_v0_apply]
  congr 1
  funext a
  refine Fin.ext ?_
  match a with
  | ⟨0, _⟩ => rfl
  | ⟨1, _⟩ => exact Nat.mod_eq_of_lt e.isLt

/-- Entry e of the flat target list is the input's word (1, e). -/
theorem dst_apply (x1 : EdgeWords) (e : Fin 1600000) :
    val_main_v3 (F := Ideal) x1 (ix1 e) = x1 (ix2 (1 : Fin 2) e) := by
  rw [val_main_v3_apply, val_main_v2_apply]
  congr 1
  funext a
  refine Fin.ext ?_
  match a with
  | ⟨0, _⟩ => rfl
  | ⟨1, _⟩ => exact Nat.mod_eq_of_lt e.isLt

/-! ## The joined list: edges first, then one loop per node -/

/-- Edge e's place in the joined list. -/
def edgeIx (e : Fin 1600000) : Fin 1700000 := ⟨e.val, by omega⟩
/-- The place of node m's loop in the joined list. -/
def loopIx (m : Fin 100000) : Fin 1700000 := ⟨1600000 + m.val, by omega⟩

theorem srcJoin_edge (x1 : EdgeWords) (e : Fin 1600000) :
    val_main_v5 (F := Ideal) x1 (ix1 (edgeIx e)) = x1 (ix2 (0 : Fin 2) e) := by
  unfold val_main_v5
  rw [concatenate_pair_apply_left (t := S1700000) (s₁ := S1600000) (s₂ := S100000) (0 : Fin 1) _ _ _ (ix1 (edgeIx e)) rfl (ix1 e)
    (fun b => by obtain rfl : b = 0 := Subsingleton.elim _ _; rfl)]
  exact src_apply x1 e

theorem srcJoin_loop (x1 : EdgeWords) (m : Fin 100000) :
    val_main_v5 (F := Ideal) x1 (ix1 (loopIx m)) = BitVec.ofNat 32 m.val := by
  unfold val_main_v5
  rw [concatenate_pair_apply_right (t := S1700000) (s₁ := S1600000) (s₂ := S100000) (0 : Fin 1) _ _ _ (ix1 (loopIx m)) rfl rfl (ix1 m)
    (fun b hb => absurd (Subsingleton.elim _ _) hb)
    (by show m.val + 1600000 = 1600000 + m.val; omega)]
  rfl

theorem dstJoin_edge (x1 : EdgeWords) (e : Fin 1600000) :
    val_main_v6 (F := Ideal) x1 (ix1 (edgeIx e)) = x1 (ix2 (1 : Fin 2) e) := by
  unfold val_main_v6
  rw [concatenate_pair_apply_left (t := S1700000) (s₁ := S1600000) (s₂ := S100000) (0 : Fin 1) _ _ _ (ix1 (edgeIx e)) rfl (ix1 e)
    (fun b => by obtain rfl : b = 0 := Subsingleton.elim _ _; rfl)]
  exact dst_apply x1 e

theorem dstJoin_loop (x1 : EdgeWords) (m : Fin 100000) :
    val_main_v6 (F := Ideal) x1 (ix1 (loopIx m)) = BitVec.ofNat 32 m.val := by
  unfold val_main_v6
  rw [concatenate_pair_apply_right (t := S1700000) (s₁ := S1600000) (s₂ := S100000) (0 : Fin 1) _ _ _ (ix1 (loopIx m)) rfl rfl (ix1 m)
    (fun b hb => absurd (Subsingleton.elim _ _) hb)
    (by show m.val + 1600000 = 1600000 + m.val; omega)]
  rfl

/-! ## Sums over the joined list -/

/-- A sum over the joined list is the sum over the edges plus the sum over the loops. -/
theorem sum_join (f : Fin 1700000 → EReal) :
    ∑ k, f k = ∑ e : Fin 1600000, f (edgeIx e) + ∑ m : Fin 100000, f (loopIx m) :=
  Fin.sum_univ_add (a := 1600000) (b := 100000) f

/-- The same for the entries that satisfy a condition. -/
theorem sum_filter_join (P : Fin 1700000 → Prop) [DecidablePred P] (f : Fin 1700000 → EReal) :
    ∑ k ∈ Finset.univ.filter P, f k
      = ∑ e ∈ Finset.univ.filter (fun e : Fin 1600000 => P (edgeIx e)), f (edgeIx e)
        + ∑ m ∈ Finset.univ.filter (fun m : Fin 100000 => P (loopIx m)), f (loopIx m) := by
  rw [Finset.sum_filter, Finset.sum_filter, Finset.sum_filter]
  exact sum_join fun k => if P k then f k else 0

/-- Of the loops, the one of node n alone satisfies "is node n". -/
theorem sum_filter_eq_node (n : Fin 100000) (g : Fin 100000 → EReal) :
    ∑ m ∈ Finset.univ.filter (fun m : Fin 100000 => m = n), g m = g n := by
  rw [Finset.filter_eq' Finset.univ n, if_pos (Finset.mem_univ n), Finset.sum_singleton]

/-! ## Integer words -/

/-- The word of a node number, taken signed, is the number. -/
theorem toInt_node (m : Fin 100000) : (BitVec.ofNat 32 m.val).toInt = (m.val : Int) := by
  have hm := m.isLt
  rw [BitVec.toInt_eq_toNat_cond, BitVec.toNat_ofNat]
  have h1 : m.val % 2 ^ 32 = m.val := Nat.mod_eq_of_lt (by omega)
  rw [h1, if_pos (by omega)]

/-- A word whose signed value is a node number is not wrapped, and clamps to that node. -/
theorem clampRow_wrapWord (w : BitVec 32) (n : Fin 100000) (h : w.toInt = (n.val : Int)) :
    clampRow 100000 (by decide) (wrapWord w) = n := by
  have hs : w.slt 0#32 = false := by
    rw [BitVec.slt, h, BitVec.toInt_zero]
    exact decide_eq_false (by omega)
  have hw : wrapWord w = w := by
    unfold wrapWord Scalar.select IntOp.cmpi
    simp only [hs]
    exact if_neg (by decide)
  rw [hw]
  refine Fin.ext ?_
  show min w.toInt.toNat (100000 - 1) = n.val
  have hn := n.isLt
  rw [h]
  omega

/-- The word of a node number clamps to the node. -/
theorem clampRow_wrapWord_node (m : Fin 100000) :
    clampRow 100000 (by decide) (wrapWord (BitVec.ofNat 32 m.val)) = m :=
  clampRow_wrapWord _ m (toInt_node m)

/-! ## Constants and columns -/

theorem ones_apply (i : S1700000.Idx) : val_main_v7 (F := Ideal) i = one := by
  rw [val_main_v7_apply]; rfl

theorem zeros8_apply (i : S100000.Idx) : val_main_v8 (F := Ideal) i = zero := by
  rw [val_main_v8_apply]; rfl

theorem zeros11_apply (i : S100000.Idx) : val_main_v11 (F := Ideal) i = zero := by
  rw [val_main_v11_apply]; rfl

theorem zerosW_apply (i : S100000.Idx) : val_main_call0_v1 (F := Ideal) i = zero := by
  rw [val_main_call0_v1_apply]; rfl

/-- Entry (k, 0) of a column made from a flat list is the list's entry k. -/
theorem col_flat {M : Nat} (f : (⟨2, ![M, 1]⟩ : Shape).Idx → (⟨1, ![M]⟩ : Shape).Idx)
    (hf : ∀ i, (f i 0).val = (i 0).val) (k : Fin M) : f (colIdx k) = ix1 k := by
  funext a
  obtain rfl : a = 0 := Subsingleton.elim _ _
  exact Fin.ext (hf _)

theorem tgtCol_apply (x1 : EdgeWords) (k : Fin 1700000) :
    val_main_v9 (F := Ideal) x1 (colIdx k) = val_main_v6 (F := Ideal) x1 (ix1 k) := by
  rw [val_main_v9_apply, col_flat idx_main_v9 (fun _ => rfl) k]

/-! ## The degree and its guarded inverse square root -/

/-- The degree: the ones of the edges into n, and the one of n's loop. -/
theorem deg_apply (x1 : EdgeWords) (n : Fin 100000) :
    val_main_v10 (F := Ideal) x1 (ix1 n) = deg (dstInt x1) n := by
  unfold val_main_v10
  show Host.scatterAdd (F := Ideal) (entryAddDims 100000 1700000 _) _ _ _ (ix1 n) = _
  rw [hostScatterAdd_entries_apply, sum_filter_join]
  simp only [tgtCol_apply, dstJoin_edge, dstJoin_loop, toInt_node, ones_apply, zeros8_apply, Nat.cast_inj,
    Fin.val_inj]
  rw [sum_filter_eq_node n (fun _ => one), ← add_assoc]
  rfl

theorem dv_apply (x1 : EdgeWords) (n : Fin 100000) :
    val_main_v14 (F := Ideal) x1 (ix1 n) = dv (dstInt x1) n := by
  rw [val_main_v14_apply, val_main_v12_apply, val_main_v13_apply, zeros11_apply, zerosW_apply, deg_apply,
    Ideal.hostUnary_rsqrt_def]
  show Scalar.select (Ideal.cmp .ogt (deg (dstInt x1) n) zero) (Ideal.rsqrt (deg (dstInt x1) n)) zero = _
  unfold dv dinvOf
  rfl

/-! ## The rows the entries of the joined list read -/

theorem srcRowCol_apply (x1 : EdgeWords) (k : Fin 1700000) :
    val_main_v20 (F := Ideal) x1 (colIdx k) = wrapWord (val_main_v5 (F := Ideal) x1 (ix1 k)) := by
  rw [val_main_v20_apply, col_flat idx_main_v20 (fun _ => rfl) k, val_main_v19_apply, val_main_v16_apply,
    val_main_v18_apply, val_main_v15_apply, val_main_v17_apply]
  rfl

theorem tgtRowCol_apply (x1 : EdgeWords) (k : Fin 1700000) :
    val_main_v28 (F := Ideal) x1 (colIdx k) = wrapWord (val_main_v6 (F := Ideal) x1 (ix1 k)) := by
  rw [val_main_v28_apply, col_flat idx_main_v28 (fun _ => rfl) k, val_main_v27_apply, val_main_v24_apply,
    val_main_v26_apply, val_main_v23_apply, val_main_v25_apply]
  rfl

theorem featRowCol_apply (x1 : EdgeWords) (k : Fin 1700000) :
    val_main_v39 (F := Ideal) x1 (colIdx k) = wrapWord (val_main_v5 (F := Ideal) x1 (ix1 k)) := by
  rw [val_main_v39_apply, col_flat idx_main_v39 (fun _ => rfl) k, val_main_v38_apply, val_main_v35_apply,
    val_main_v37_apply, val_main_v34_apply, val_main_v36_apply]
  rfl

/-- The inverse square root picked at entry k's source row. -/
theorem dvSrc_apply (x1 : EdgeWords) (k : Fin 1700000) :
    val_main_v21 (F := Ideal) x1 (ix1 k)
      = dv (dstInt x1) (clampRow 100000 (by decide) (wrapWord (val_main_v5 (F := Ideal) x1 (ix1 k)))) := by
  unfold val_main_v21
  show Host.gather (entryDims 100000 1700000 _) _ _ (ix1 k) = _
  rw [gather_entries_apply (by decide), dv_apply, srcRowCol_apply]

/-- The inverse square root picked at entry k's target row. -/
theorem dvTgt_apply (x1 : EdgeWords) (k : Fin 1700000) :
    val_main_v29 (F := Ideal) x1 (ix1 k)
      = dv (dstInt x1) (clampRow 100000 (by decide) (wrapWord (val_main_v6 (F := Ideal) x1 (ix1 k)))) := by
  unfold val_main_v29
  show Host.gather (entryDims 100000 1700000 _) _ _ (ix1 k) = _
  rw [gather_entries_apply (by decide), dv_apply, tgtRowCol_apply]

/-- The weight of an edge into n. -/
theorem norm_edge (x1 : EdgeWords) (e : Fin 1600000) (n : Fin 100000) (h : dstInt x1 e = (n.val : Int)) :
    val_main_v30 (F := Ideal) x1 (ix1 (edgeIx e))
      = (dv (dstInt x1) (srcRow x1 e) * one) * dv (dstInt x1) n := by
  rw [val_main_v30_apply, val_main_v22_apply, ones_apply, dvSrc_apply, dvTgt_apply, srcJoin_edge, dstJoin_edge,
    clampRow_wrapWord _ n h]
  rfl

/-- The weight of node m's loop. -/
theorem norm_loop (x1 : EdgeWords) (m : Fin 100000) :
    val_main_v30 (F := Ideal) x1 (ix1 (loopIx m)) = (dv (dstInt x1) m * one) * dv (dstInt x1) m := by
  rw [val_main_v30_apply, val_main_v22_apply, ones_apply, dvSrc_apply, dvTgt_apply, srcJoin_loop, dstJoin_loop,
    clampRow_wrapWord_node]
  rfl

/-! ## Whole-array operations at an entry, for any arrays -/

theorem mulf_at {s : Shape} (x y : FVec Ideal s .f32) (i : s.Idx) : mulf x y i = x i * y i := rfl

/-- Rows picked for the joined list: entry (k, j) is feature j of the row k's word names. -/
theorem gatherRows_at (g : Feat) (idx : IVec S1700000x1 32) (k : Fin 1700000) (j : Fin 64) :
    Host.gather gather_S100000x64_S1700000x1_S1700000x64_1_0_n_n_0_1_164 g idx (ix2 k j)
      = g (ix2 (clampRow 100000 (by decide) (idx (colIdx k))) j) := by
  show Host.gather (rowDims 100000 64 1700000 _) g idx (ix2 k j) = _
  exact gather_rows_apply (by decide) _ g idx k j

/-- Rows of the joined list added up: entry (n, j) collects feature j of the entries whose word is n. -/
theorem scatterRows_at (z : Feat) (idx : IVec S1700000x1 32) (u : FVec Ideal S1700000x64 .f32)
    (n : Fin 100000) (j : Fin 64) :
    Host.scatterAdd (F := Ideal) scatter_S100000x64_S1700000x1_S1700000x64_1_0_0_1 z idx u (ix2 n j)
      = z (ix2 n j)
        + ∑ k ∈ Finset.univ.filter (fun k : Fin 1700000 => (idx (colIdx k)).toInt = (n.val : Int)), u (ix2 k j) := by
  show Host.scatterAdd (F := Ideal) (rowAddDims 100000 64 1700000 _) z idx u (ix2 n j) = _
  exact hostScatterAdd_rows_apply _ z idx u n j

/-! ## One propagation step -/

/-- One step of the reference on a feature matrix g, for any arrays that hold a zero matrix, the target words,
    the weights repeated along the features, and the wrapped source words: the joined list's sum splits into the
    edges into n, each with its own weight, and the loop of n; that is the edgewise step. -/
theorem step_apply (x1 : EdgeWords) (z : Feat) (tcol : IVec S1700000x1 32) (nm : FVec Ideal S1700000x64 .f32)
    (g : Feat) (fcol : IVec S1700000x1 32)
    (hz : ∀ i, z i = zero)
    (htc : ∀ k : Fin 1700000, tcol (colIdx k) = val_main_v6 (F := Ideal) x1 (ix1 k))
    (hnm : ∀ (k : Fin 1700000) (j : Fin 64), nm (ix2 k j) = val_main_v30 (F := Ideal) x1 (ix1 k))
    (hfc : ∀ k : Fin 1700000, fcol (colIdx k) = wrapWord (val_main_v5 (F := Ideal) x1 (ix1 k)))
    (n : Fin 100000) (j : Fin 64) :
    Host.scatterAdd (F := Ideal) scatter_S100000x64_S1700000x1_S1700000x64_1_0_0_1 z tcol
        (mulf nm (Host.gather gather_S100000x64_S1700000x1_S1700000x64_1_0_n_n_0_1_164 g fcol)) (ix2 n j)
      = estep (srcRow x1) (dstInt x1) (ofMat g) n j := by
  rw [scatterRows_at, sum_filter_join, hz]
  unfold estep
  refine congrArg₂ (· + ·) rfl (congrArg₂ (· + ·)
    (Finset.sum_congr (Finset.filter_congr fun e _ => ?_) fun e he => ?_) ?_)
  · rw [htc, dstJoin_edge]
    exact Iff.rfl
  · have hd : dstInt x1 e = (n.val : Int) := (Finset.mem_filter.mp he).2
    rw [mulf_at, gatherRows_at, hnm, hfc, norm_edge x1 e n hd, srcJoin_edge]
    rfl
  · simp only [htc, dstJoin_loop, toInt_node, Nat.cast_inj, Fin.val_inj]
    rw [sum_filter_eq_node n, mulf_at, gatherRows_at, hnm, hfc, norm_loop, srcJoin_loop, clampRow_wrapWord_node]

theorem zeros43_apply (i : S100000x64.Idx) : val_main_v43 (F := Ideal) i = zero := by
  rw [val_main_v43_apply]; rfl

theorem tgtCol44_apply (x1 : EdgeWords) (k : Fin 1700000) :
    val_main_v44 (F := Ideal) x1 (colIdx k) = val_main_v6 (F := Ideal) x1 (ix1 k) := by
  rw [val_main_v44_apply, col_flat idx_main_v44 (fun _ => rfl) k]

theorem normMat41_apply (x1 : EdgeWords) (k : Fin 1700000) (j : Fin 64) :
    val_main_v41 (F := Ideal) x1 (ix2 k j) = val_main_v30 (F := Ideal) x1 (ix1 k) := by
  have h : idx_main_v41 (ix2 k j) = colIdx k := by
    funext a
    refine Fin.ext ?_
    match a with
    | ⟨0, _⟩ => rfl
    | ⟨1, _⟩ => rfl
  rw [val_main_v41_apply, h, val_main_v33_apply, col_flat idx_main_v33 (fun _ => rfl) k]

theorem zeros59_apply (i : S100000x64.Idx) : val_main_v59 (F := Ideal) i = zero := by
  rw [val_main_v59_apply]; rfl

theorem tgtCol60_apply (x1 : EdgeWords) (k : Fin 1700000) :
    val_main_v60 (F := Ideal) x1 (colIdx k) = val_main_v6 (F := Ideal) x1 (ix1 k) := by
  rw [val_main_v60_apply, col_flat idx_main_v60 (fun _ => rfl) k]

theorem normMat57_apply (x1 : EdgeWords) (k : Fin 1700000) (j : Fin 64) :
    val_main_v57 (F := Ideal) x1 (ix2 k j) = val_main_v30 (F := Ideal) x1 (ix1 k) := by
  have h : idx_main_v57 (ix2 k j) = colIdx k := by
    funext a
    refine Fin.ext ?_
    match a with
    | ⟨0, _⟩ => rfl
    | ⟨1, _⟩ => rfl
  rw [val_main_v57_apply, h, val_main_v49_apply, col_flat idx_main_v49 (fun _ => rfl) k]

theorem featRowCol55_apply (x1 : EdgeWords) (k : Fin 1700000) :
    val_main_v55 (F := Ideal) x1 (colIdx k) = wrapWord (val_main_v5 (F := Ideal) x1 (ix1 k)) := by
  rw [val_main_v55_apply, col_flat idx_main_v55 (fun _ => rfl) k, val_main_v54_apply, val_main_v51_apply,
    val_main_v53_apply, val_main_v50_apply, val_main_v52_apply]
  rfl

theorem zeros75_apply (i : S100000x64.Idx) : val_main_v75 (F := Ideal) i = zero := by
  rw [val_main_v75_apply]; rfl

theorem tgtCol76_apply (x1 : EdgeWords) (k : Fin 1700000) :
    val_main_v76 (F := Ideal) x1 (colIdx k) = val_main_v6 (F := Ideal) x1 (ix1 k) := by
  rw [val_main_v76_apply, col_flat idx_main_v76 (fun _ => rfl) k]

theorem normMat73_apply (x1 : EdgeWords) (k : Fin 1700000) (j : Fin 64) :
    val_main_v73 (F := Ideal) x1 (ix2 k j) = val_main_v30 (F := Ideal) x1 (ix1 k) := by
  have h : idx_main_v73 (ix2 k j) = colIdx k := by
    funext a
    refine Fin.ext ?_
    match a with
    | ⟨0, _⟩ => rfl
    | ⟨1, _⟩ => rfl
  rw [val_main_v73_apply, h, val_main_v65_apply, col_flat idx_main_v65 (fun _ => rfl) k]

theorem featRowCol71_apply (x1 : EdgeWords) (k : Fin 1700000) :
    val_main_v71 (F := Ideal) x1 (colIdx k) = wrapWord (val_main_v5 (F := Ideal) x1 (ix1 k)) := by
  rw [val_main_v71_apply, col_flat idx_main_v71 (fun _ => rfl) k, val_main_v70_apply, val_main_v67_apply,
    val_main_v69_apply, val_main_v66_apply, val_main_v68_apply]
  rfl

/-- The first propagated matrix is the edgewise step of the input. -/
theorem step1 (x0 : Feat) (x1 : EdgeWords) :
    ofMat (val_main_v45 (F := Ideal) x0 x1) = estep (srcRow x1) (dstInt x1) (ofMat x0) := by
  funext n j
  show val_main_v45 (F := Ideal) x0 x1 (ix2 n j) = _
  unfold val_main_v45 val_main_v42 val_main_v40
  exact step_apply x1 _ _ _ x0 _ zeros43_apply (tgtCol44_apply x1) (normMat41_apply x1) (featRowCol_apply x1) n j

/-- The second is the edgewise step of the first. -/
theorem step2 (x0 : Feat) (x1 : EdgeWords) :
    ofMat (val_main_v61 (F := Ideal) x0 x1)
      = estep (srcRow x1) (dstInt x1) (ofMat (val_main_v45 (F := Ideal) x0 x1)) := by
  funext n j
  show val_main_v61 (F := Ideal) x0 x1 (ix2 n j) = _
  unfold val_main_v61 val_main_v58 val_main_v56
  exact step_apply x1 _ _ _ (val_main_v45 (F := Ideal) x0 x1) _ zeros59_apply (tgtCol60_apply x1) (normMat57_apply x1)
    (featRowCol55_apply x1) n j

/-- The third is the edgewise step of the second. -/
theorem step3 (x0 : Feat) (x1 : EdgeWords) :
    ofMat (val_main_v77 (F := Ideal) x0 x1)
      = estep (srcRow x1) (dstInt x1) (ofMat (val_main_v61 (F := Ideal) x0 x1)) := by
  funext n j
  show val_main_v77 (F := Ideal) x0 x1 (ix2 n j) = _
  unfold val_main_v77 val_main_v74 val_main_v72
  exact step_apply x1 _ _ _ (val_main_v61 (F := Ideal) x0 x1) _ zeros75_apply (tgtCol76_apply x1) (normMat73_apply x1)
    (featRowCol71_apply x1) n j

/-- The three propagated matrices as iterated edgewise steps of the input. -/
theorem steps_apply (x0 : Feat) (x1 : EdgeWords) :
    ofMat (val_main_v45 (F := Ideal) x0 x1) = estep (srcRow x1) (dstInt x1) (ofMat x0)
    ∧ ofMat (val_main_v61 (F := Ideal) x0 x1)
        = estep (srcRow x1) (dstInt x1) (estep (srcRow x1) (dstInt x1) (ofMat x0))
    ∧ ofMat (val_main_v77 (F := Ideal) x0 x1)
        = estep (srcRow x1) (dstInt x1)
            (estep (srcRow x1) (dstInt x1) (estep (srcRow x1) (dstInt x1) (ofMat x0))) := by
  refine ⟨step1 x0 x1, ?_, ?_⟩
  · rw [step2, step1]
  · rw [step3, step2, step1]

end Cert.RefValue

end
-- ==== Proof.Algebra.lean ====
/-
  The two arrangements of one propagation step agree on the extended reals.

  The weight d n of a node is a guarded inverse square root: whatever its argument, it is a real number that is
  not negative. Multiplication by such a number distributes over any finite sum of extended reals (no entry of the
  sum needs to be finite), and multiplication of extended reals is commutative and associative with unit 1. With the
  float words for 0 and 1 read as the numbers 0 and 1, the factored step and the edgewise step are therefore the
  same function, and so are the two layers built from three such steps.
-/
import proofs.«100325_j31980326486703_2_alg».proof.Proof.Spec
import Idealize.ShloMosaic.Lib.IdealHost
import Mathlib.Data.EReal.Operations

noncomputable section

open scoped BigOperators

namespace Cert.Spec

open Idealize.ShloMosaic

/-- The float word of zero denotes the number 0. -/
theorem zero_eq : zero = 0 := Ideal.ofBits_zero_f32

/-- The float word of one denotes the number 1. -/
theorem one_eq : one = 1 := Ideal.ofBits_one_f32

/-- The guarded inverse square root is, at every argument, a real number that is not negative: it is 0 at the
infinities and at every real that is not positive, and 1 / √r at a real r > 0. -/
theorem dinvOf_real (v : EReal) : ∃ r : ℝ, 0 ≤ r ∧ dinvOf v = (r : EReal) := by
  unfold dinvOf Scalar.select Ideal.cmp
  rw [zero_eq]
  induction v using EReal.rec with
  | bot => exact ⟨0, le_refl _, by simp⟩
  | top => exact ⟨0, le_refl _, by simp⟩
  | coe r =>
    by_cases hr : 0 < r
    · refine ⟨(Real.sqrt r)⁻¹, inv_nonneg.mpr (Real.sqrt_nonneg r), ?_⟩
      have h1 : ¬ r < 0 := not_lt.mpr hr.le
      have h2 : r ≠ 0 := hr.ne'
      simp [hr, h1, h2]
    · exact ⟨0, le_refl _, by simp [hr]⟩

/-- Multiplication by an extended real that is neither negative nor +∞ distributes over a finite sum. -/
theorem mul_sum_of_nonneg_of_ne_top {ι : Type} (a : EReal) (ha : 0 ≤ a) (ha' : a ≠ ⊤) (S : Finset ι)
    (f : ι → EReal) : a * ∑ i ∈ S, f i = ∑ i ∈ S, a * f i := by
  classical
  induction S using Finset.induction_on with
  | empty => simp
  | insert i S hi ih =>
    rw [Finset.sum_insert hi, Finset.sum_insert hi, EReal.left_distrib_of_nonneg_of_ne_top ha ha', ih]

section Layer

variable (x : Fin 100000 → Fin 64 → EReal) (s : Fin 1600000 → Fin 100000) (t : Fin 1600000 → ℤ)

/-- A node's weight is a real number that is not negative. -/
theorem dv_real (n : Fin 100000) : ∃ r : ℝ, 0 ≤ r ∧ dv t n = (r : EReal) := dinvOf_real _

/-- One step: the factored arrangement equals the edgewise one, for any feature matrix. -/
theorem fstep_eq_estep : fstep s t = estep s t := by
  funext h n j
  obtain ⟨r, hr, hd⟩ := dv_real t n
  have h0 : (0 : EReal) ≤ dv t n := by rw [hd]; exact EReal.coe_nonneg.mpr hr
  have hT : dv t n ≠ ⊤ := by rw [hd]; exact EReal.coe_ne_top r
  unfold fstep estep gatherSum
  simp only [zero_eq, one_eq, zero_add, mul_one]
  rw [mul_sum_of_nonneg_of_ne_top (dv t n) h0 hT]
  have hs : ∑ e ∈ into t n, dv t n * (dv t (s e) * h (s e) j)
      = ∑ e ∈ into t n, dv t (s e) * dv t n * h (s e) j :=
    Finset.sum_congr rfl fun e _ => by rw [← mul_assoc, mul_comm (dv t n)]
  rw [hs]

/-- The layer: the factored arrangement equals the edgewise one. -/
theorem outF_eq_outE : outF x s t = outE x s t := by
  funext n j
  unfold outF outE
  rw [fstep_eq_estep]

end Layer

end Cert.Spec

end
-- ==== Proof.Bridge.lean ====
/-
  The two programs compute one function.

  The kernel program's composed result is, index by index, the layer in its factored arrangement. The reference's
  three propagated matrices are the edgewise step applied once, twice and three times to the input, and its result is
  the specification's last part of those three, so its last stage is, index by index, the layer in its edgewise
  arrangement. The two arrangements are equal on the extended reals because the inverse-square-root weights are
  non-negative reals, over which multiplication distributes through any sum.
-/
import proofs.«100325_j31980326486703_2_alg».proof.Proof.KernelOut
import proofs.«100325_j31980326486703_2_alg».proof.Proof.RefFinish
import proofs.«100325_j31980326486703_2_alg».proof.Proof.RefValue
import proofs.«100325_j31980326486703_2_alg».proof.Proof.Algebra

noncomputable section

namespace Cert.Bridge

open Idealize.ShloMosaic Idealize.ShloMosaic.ValueIdx

/-- The reference's result at (n, j) is the layer in its edgewise arrangement. -/
theorem ref_apply (x0 : Cert.RefFinish.Feat) (x1 : Cert.RefFinish.EdgeWords) (n : Fin 100000) (j : Fin 64) :
    Cert.ReferenceIdeal.ReadP.val_main_v102 (F := Ideal) x0 x1 (ix2 n j)
      = Cert.Spec.outE (Cert.Spec.ofMat x0) (Cert.Spec.srcRow x1) (Cert.Spec.dstInt x1) n j := by
  rw [Cert.RefFinish.finish_apply, Cert.RefValue.step3 x0 x1, Cert.RefValue.step2 x0 x1, Cert.RefValue.step1 x0 x1]
  rfl

/-- The kernel program's result and the reference's result are the same array, for any inputs. -/
theorem result_eq (x0 : Cert.KernelIdeal.Host.Mx) (x1 : Cert.KernelIdeal.Host.EI) :
    Cert.KernelIdeal.Host.kernelOut x0 x1 = Cert.ReferenceIdeal.ReadP.val_main_v102 (F := Ideal) x0 x1 := by
  funext i
  obtain ⟨n, j, rfl⟩ : ∃ (n : Fin 100000) (j : Fin 64), i = ix2 n j := ⟨i 0, i 1, eq_ix2 i⟩
  rw [Cert.KernelIdeal.Host.kernelOut_apply, ref_apply, Cert.Spec.outF_eq_outE]

end Cert.Bridge

end
-- ==== Proof.lean ====
/-
  One graph-propagation layer: the kernel program against its reference, on the extended reals.

  Both programs compute, for a graph of 100000 nodes with 64 features each and 1600000 edges, three steps of
  propagation with the symmetrically normalised adjacency (self loops added), accumulated with weights alpha and coef
  and rectified, then the mean of the rectified features over each node's incoming edges, the input added, rectified.
  The reference weights every edge (and every self loop, as one more edge) by the product of the two ends'
  inverse-square-root degrees; the kernel program pre-scales the rows by the source's weight, sums over the edges, and
  multiplies by the target's weight once, in five dense row-by-row passes with the edge sums computed between them.
  The weights are non-negative reals, and multiplication by a non-negative real distributes over sums of extended
  reals, so the two arrangements give equal results at every index, whatever the inputs hold.

  The frames of the two kernel programs are the generated launches; the reference's frame is its run with the
  result dropped; nothing was rewritten by the idealization, so that conjunct is trivial; and the value conjunct
  states both runs' posts at one function of the inputs.
-/
import proofs.«100325_j31980326486703_2_alg».proof.Defs
import proofs.«100325_j31980326486703_2_alg».proof.Proof.Gen.Kernel
import proofs.«100325_j31980326486703_2_alg».proof.Proof.Gen.Kernel.Skeleton
import proofs.«100325_j31980326486703_2_alg».proof.Proof.Gen.Kernel.Launch
import proofs.«100325_j31980326486703_2_alg».proof.Proof.Gen.Kernel.Points
import proofs.«100325_j31980326486703_2_alg».proof.Proof.Gen.Kernel.Frame
import proofs.«100325_j31980326486703_2_alg».proof.Proof.Gen.KernelIdeal
import proofs.«100325_j31980326486703_2_alg».proof.Proof.Gen.KernelIdeal.Skeleton
import proofs.«100325_j31980326486703_2_alg».proof.Proof.Gen.KernelIdeal.Launch
import proofs.«100325_j31980326486703_2_alg».proof.Proof.Gen.KernelIdeal.Points
import proofs.«100325_j31980326486703_2_alg».proof.Proof.Gen.KernelIdeal.Frame
import proofs.«100325_j31980326486703_2_alg».proof.Proof.Gen.ReferenceIdeal
import proofs.«100325_j31980326486703_2_alg».proof.Proof.Gen.Pre_finite_inputs
import proofs.«100325_j31980326486703_2_alg».proof.Proof.KernelRun
import proofs.«100325_j31980326486703_2_alg».proof.Proof.KernelChain
import proofs.«100325_j31980326486703_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end with the layer's result: the kernel program at its composed function of the
    inputs, the reference at its last stage, which is the same array. -/
theorem algebraic : Cert.algebraic_KernelIdeal_ReferenceIdeal := by
  intro m ρ m' ρ' _ hagree
  refine ⟨fun c => Cert.KernelIdeal.Host.kernelOut (Cert.KernelIdeal.Chain.xA m c) (Cert.KernelIdeal.Chain.eA m c), ?_, ?_⟩
  · exact (θ_run Cert.KernelIdeal.defs _ _).mono
      (fun r h c => ⟨(h c).1.trans (Cert.KernelIdeal.Chain.W12_v62 m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v102_eq, (hagree c).1, (hagree c).2]
    exact (Cert.Bridge.result_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
